-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x65 : Shape := ⟨2, ![8192, 65]⟩
abbrev S8192x8192 : Shape := ⟨2, ![8192, 8192]⟩
abbrev S65x65 : Shape := ⟨2, ![65, 65]⟩
abbrev S65 : Shape := ⟨1, ![65]⟩
abbrev S_ : Shape := ⟨0, ![]⟩

class Facts : Prop where
  bcast_S_S8192x65 : S_.BroadcastsInDim S8192x65 (![] : Fin 0 → Fin S8192x65.rank)
  reducesTo_S8192x65_S_d0_1 : S8192x65.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S65x65 : S_.BroadcastsInDim S65x65 (![] : Fin 0 → Fin S65x65.rank)
  reducesTo_S65x65_S_d0_1 : S65x65.ReducesTo [0, 1] S_
  bcast_S_S65 : S_.BroadcastsInDim S65 (![] : Fin 0 → Fin S65.rank)
  reducesTo_S65_S_d0 : S65.ReducesTo [0] S_

variable [Facts]

def fn_part1 {F : FTy → Type} [FloatOps F] (main_arg4 : FVec F S65x65 .f32) (main_arg5 : FVec F S65 .f32) (main_v13 : IVec S_ 1) (main_v16 : IVec S65 1) : IVec S_ 1 :=
  let main_c_5 : IVec S_ 1 := constantI S_ 1 1#1
  let main_v17 : IVec S_ 1 := (fun x v => Host.reduce IntOp.andi x v reducesTo_S65_S_d0 h_S_) main_v16 main_c_5
  let main_v18 : IVec S_ 1 := andi main_v13 main_v17
  let main_v19 : FVec F S65x65 .f32 := Host.absf main_arg4
  let main_cst_6 : FVec F S_ .f32 := constant S_ .f32 0x7F800000#32
  let main_v20 : FVec F S65x65 .f32 := broadcastInDim S65x65 ![] bcast_S_S65x65 main_cst_6
  let main_v21 : IVec S65x65 1 := cmpf .olt main_v19 main_v20
  let main_c_7 : IVec S_ 1 := constantI S_ 1 1#1
  let main_v22 : IVec S_ 1 := (fun x v => Host.reduce IntOp.andi x v reducesTo_S65x65_S_d0_1 h_S_) main_v21 main_c_7
  let main_v23 : IVec S_ 1 := andi main_v18 main_v22
  let main_v24 : FVec F S65 .f32 := Host.absf main_arg5
  let main_cst_8 : FVec F S_ .f32 := constant S_ .f32 0x7F800000#32
  let main_v25 : FVec F S65 .f32 := broadcastInDim S65 ![] bcast_S_S65 main_cst_8
  let main_v26 : IVec S65 1 := cmpf .olt main_v24 main_v25
  let main_c_9 : IVec S_ 1 := constantI S_ 1 1#1
  let main_v27 : IVec S_ 1 := (fun x v => Host.reduce IntOp.andi x v reducesTo_S65_S_d0 h_S_) main_v26 main_c_9
  let main_v28 : IVec S_ 1 := andi main_v23 main_v27
  main_v28

def fn {F : FTy → Type} [FloatOps F] (main_arg0 : FVec F S8192x65 .f32) (main_arg1 : FVec F S8192x8192 .f32) (main_arg2 : FVec F S65x65 .f32) (main_arg3 : FVec F S65 .f32) (main_arg4 : FVec F S65x65 .f32) (main_arg5 : FVec F S65 .f32) : IVec S_ 1 :=
  let main_v0 : FVec F S8192x65 .f32 := Host.absf main_arg0
  let main_cst : FVec F S_ .f32 := constant S_ .f32 0x7F800000#32
  let main_v1 : FVec F S8192x65 .f32 := broadcastInDim S8192x65 ![] bcast_S_S8192x65 main_cst
  let main_v2 : IVec S8192x65 1 := cmpf .olt main_v0 main_v1
  let main_c : IVec S_ 1 := constantI S_ 1 1#1
  let main_v3 : IVec S_ 1 := (fun x v => Host.reduce IntOp.andi x v reducesTo_S8192x65_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S65x65 .f32 := Host.absf main_arg2
  let main_cst_2 : FVec F S_ .f32 := constant S_ .f32 0x7F800000#32
  let main_v10 : FVec F S65x65 .f32 := broadcastInDim S65x65 ![] bcast_S_S65x65 main_cst_2
  let main_v11 : IVec S65x65 1 := cmpf .olt main_v9 main_v10
  let main_c_3 : IVec S_ 1 := constantI S_ 1 1#1
  let main_v12 : IVec S_ 1 := (fun x v => Host.reduce IntOp.andi x v reducesTo_S65x65_S_d0_1 h_S_) main_v11 main_c_3
  let main_v13 : IVec S_ 1 := andi main_v8 main_v12
  let main_v14 : FVec F S65 .f32 := Host.absf main_arg3
  let main_cst_4 : FVec F S_ .f32 := constant S_ .f32 0x7F800000#32
  let main_v15 : FVec F S65 .f32 := broadcastInDim S65 ![] bcast_S_S65 main_cst_4
  let main_v16 : IVec S65 1 := cmpf .olt main_v14 main_v15
  fn_part1 (F := F) main_arg4 main_arg5 main_v13 main_v16
-- ==== Kernel.lean ====
abbrev S8192x65 : Shape := ⟨2, ![8192, 65]⟩
abbrev S8192x8192 : Shape := ⟨2, ![8192, 8192]⟩
abbrev S65x65 : Shape := ⟨2, ![65, 65]⟩
abbrev S65 : Shape := ⟨1, ![65]⟩
abbrev S1x65 : Shape := ⟨2, ![1, 65]⟩
abbrev S256x8192 : Shape := ⟨2, ![256, 8192]⟩
abbrev S256x65 : Shape := ⟨2, ![256, 65]⟩

abbrev nBuf : Space → Nat
  | .hbm => 9
  | .vmem => 11
  | .smem => 0
  | _ => 0

abbrev bufTy : (tb : Table) → Fin (tcTables nBuf tb) → BufTy
  | .hbm, ⟨0, _⟩ => ⟨S8192x65, .f32⟩
  | .hbm, ⟨1, _⟩ => ⟨S8192x8192, .f32⟩
  | .hbm, ⟨2, _⟩ => ⟨S65x65, .f32⟩
  | .hbm, ⟨3, _⟩ => ⟨S65, .f32⟩
  | .hbm, ⟨4, _⟩ => ⟨S65x65, .f32⟩
  | .hbm, ⟨5, _⟩ => ⟨S65, .f32⟩
  | .hbm, ⟨6, _⟩ => ⟨S1x65, .f32⟩
  | .hbm, ⟨7, _⟩ => ⟨S1x65, .f32⟩
  | .hbm, ⟨8, _⟩ => ⟨S8192x65, .f32⟩
  | .local _ .vmem, ⟨0, _⟩ => ⟨S8192x65, .f32⟩
  | .local _ .vmem, ⟨1, _⟩ => ⟨S256x8192, .f32⟩
  | .local _ .vmem, ⟨2, _⟩ => ⟨S256x8192, .f32⟩
  | .local _ .vmem, ⟨3, _⟩ => ⟨S65x65, .f32⟩
  | .local _ .vmem, ⟨4, _⟩ => ⟨S1x65, .f32⟩
  | .local _ .vmem, ⟨5, _⟩ => ⟨S65x65, .f32⟩
  | .local _ .vmem, ⟨6, _⟩ => ⟨S1x65, .f32⟩
  | .local _ .vmem, ⟨7, _⟩ => ⟨S256x65, .f32⟩
  | .local _ .vmem, ⟨8, _⟩ => ⟨S256x65, .f32⟩
  | .local _ .vmem, ⟨9, _⟩ => ⟨S8192x65, .f32⟩
  | .local _ .vmem, ⟨10, _⟩ => ⟨S8192x65, .f32⟩
  | _, _ => ⟨S8192x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_off1 (i : grid0.Coords) : Fin 2 → Nat :=
  let arg1 : BitVec 32 := BitVec.ofNat 32 (i 1).val
  let c256_i32 : BitVec 32 := 256#32
  let v25 : BitVec 32 := Scalar.muli arg1 c256_i32
  let v26 : Index := Scalar.indexCast v25
  let c0_14 : Index := 0#32
  ![v26.toNat, 0]
def k0_cond4 (i : grid0.Coords) : BitVec 1 :=
  let arg0 : BitVec 32 := BitVec.ofNat 32 (i 0).val
  let c1_i32_9 : BitVec 32 := 1#32
  let v16 : BitVec 1 := Scalar.cmpi .eq arg0 c1_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S8192x65 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S65x65 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x65 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S65x65 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x65 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x65 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S65_S1x65 : S65.ShapeCasts S1x65
  inb_S8192x65_S8192x65_0_0 : ∀ a, (![0, 0] : Fin 2 → Nat) a + S8192x65.size a ≤ S8192x65.size a
  h_S8192x65 : 0 < S8192x65.numel
  inb_S65x65_S65x65_0_0 : ∀ a, (![0, 0] : Fin 2 → Nat) a + S65x65.size a ≤ S65x65.size a
  h_S65x65 : 0 < S65x65.numel
  shapeCasts_S8192x65_S8192x65 : S8192x65.ShapeCasts S8192x65
  inb_S256x8192_S256x8192_0_0 : ∀ a, (![0, 0] : Fin 2 → Nat) a + S256x8192.size a ≤ S256x8192.size a
  h_S256x8192 : 0 < S256x8192.numel
  inb_S1x65_S1x65_0_0 : ∀ a, (![0, 0] : Fin 2 → Nat) a + S1x65.size a ≤ S1x65.size a
  h_S1x65 : 0 < S1x65.numel
  shapeCasts_S1x65_S1x65 : S1x65.ShapeCasts S1x65
  broadcasts_S1x65_S256x65 : S1x65.Broadcasts S256x65
  h_S256x65 : 0 < S256x65.numel
  shapeCasts_S256x65_S256x65 : S256x65.ShapeCasts S256x65
  inb_S256x65_S256x65_0_0 : ∀ a, (![0, 0] : Fin 2 → Nat) a + S256x65.size a ≤ S256x65.size a
  dot_S8192x65_S65x65_S8192x65_1_0_0_1_n_n_wf : DotDims.WF S8192x65 S65x65 S8192x65 [1] [0] [0] [1] [] []
  dot_S256x8192_S8192x65_S256x65_1_0_0_1_n_n_wf : DotDims.WF S256x8192 S8192x65 S256x65 [1] [0] [0] [1] [] []
  hrank0 : 0 < grid0.rank
  k0_off1_inb : ∀ i : grid0.Coords, ∀ (k0_h3 : k0_cond3 i = 1#1), ∀ a, (k0_off1 i) a + S256x65.size a ≤ S8192x65.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x65.size a ≤ S8192x65.size a
  hwx0_0 : ∀ i : grid0.Coords, EltTy.bits .f32 = 32 ∨ (Rect.block (s := S8192x65) S8192x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x65.size a ≤ S65x65.size a
  hwx0_2 : ∀ i : grid0.Coords, EltTy.bits .f32 = 32 ∨ (Rect.block (s := S65x65) S65x65.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x65.size a ≤ S1x65.size a
  hwx0_3 : ∀ i : grid0.Coords, EltTy.bits .f32 = 32 ∨ (Rect.block (s := S1x65) S1x65.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x65.size a ≤ S65x65.size a
  hwx0_4 : ∀ i : grid0.Coords, EltTy.bits .f32 = 32 ∨ (Rect.block (s := S65x65) S65x65.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x65.size a ≤ S1x65.size a
  hwx0_5 : ∀ i : grid0.Coords, EltTy.bits .f32 = 32 ∨ (Rect.block (s := S1x65) S1x65.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x65.size a ≤ S8192x65.size a
  hwx0_6 : ∀ i : grid0.Coords, EltTy.bits .f32 = 32 ∨ (Rect.block (s := S8192x65) S256x65.size (cc0_transform_6 i) (hinb0_6 i)).WholeWords (EltTy.packing .f32)

variable [Facts₀]

def dot_S8192x65_S65x65_S8192x65_1_0_0_1_n_n : DotDims S8192x65 S65x65 S8192x65 where
  lhsContracting := [1]
  rhsContracting := [0]
  lhsNonContracting := [0]
  rhsNonContracting := [1]
  lhsBatch := []
  rhsBatch := []
  wf := dot_S8192x65_S65x65_S8192x65_1_0_0_1_n_n_wf
def dot_S256x8192_S8192x65_S256x65_1_0_0_1_n_n : DotDims S256x8192 S8192x65 S256x65 where
  lhsContracting := [1]
  rhsContracting := [0]
  lhsNonContracting := [0]
  rhsNonContracting := [1]
  lhsBatch := []
  rhsBatch := []
  wf := dot_S256x8192_S8192x65_S256x65_1_0_0_1_n_n_wf

abbrev win0_0 : Pipeline.Window sig grid0 :=
  Pipeline.Window.ofSpec (Memref.whole main_arg0) S8192x65.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65x65.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x65.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S65x65.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x65.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x65.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S8192x65 : Shape := ⟨2, ![8192, 65]⟩
abbrev S8192x8192 : Shape := ⟨2, ![8192, 8192]⟩
abbrev S65x65 : Shape := ⟨2, ![65, 65]⟩
abbrev S65 : Shape := ⟨1, ![65]⟩
abbrev S1x65 : Shape := ⟨2, ![1, 65]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x65, .f32⟩
  | .hbm, ⟨1, _⟩ => ⟨S8192x8192, .f32⟩
  | .hbm, ⟨2, _⟩ => ⟨S65x65, .f32⟩
  | .hbm, ⟨3, _⟩ => ⟨S65, .f32⟩
  | .hbm, ⟨4, _⟩ => ⟨S65x65, .f32⟩
  | .hbm, ⟨5, _⟩ => ⟨S65, .f32⟩
  | .hbm, ⟨6, _⟩ => ⟨S8192x65, .f32⟩
  | .hbm, ⟨7, _⟩ => ⟨S8192x65, .f32⟩
  | .hbm, ⟨8, _⟩ => ⟨S1x65, .f32⟩
  | .hbm, ⟨9, _⟩ => ⟨S8192x65, .f32⟩
  | .hbm, ⟨10, _⟩ => ⟨S8192x65, .f32⟩
  | .hbm, ⟨11, _⟩ => ⟨S_, .f32⟩
  | .hbm, ⟨12, _⟩ => ⟨S8192x65, .f32⟩
  | .hbm, ⟨13, _⟩ => ⟨S8192x65, .f32⟩
  | .hbm, ⟨14, _⟩ => ⟨S8192x65, .f32⟩
  | .hbm, ⟨15, _⟩ => ⟨S8192x65, .f32⟩
  | .hbm, ⟨16, _⟩ => ⟨S1x65, .f32⟩
  | .hbm, ⟨17, _⟩ => ⟨S8192x65, .f32⟩
  | .hbm, ⟨18, _⟩ => ⟨S8192x65, .f32⟩
  | .hbm, ⟨19, _⟩ => ⟨S_, .f32⟩
  | .hbm, ⟨20, _⟩ => ⟨S8192x65, .f32⟩
  | .hbm, ⟨21, _⟩ => ⟨S8192x65, .f32⟩
  | _, _ => ⟨S8192x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S65_S1x65_1 : S65.BroadcastsInDim S1x65 (![1] : Fin 1 → Fin S1x65.rank)
  bcast_S1x65_S8192x65_0_1 : S1x65.BroadcastsInDim S8192x65 (![0, 1] : Fin 2 → Fin S8192x65.rank)
  bcast_S_S8192x65 : S_.BroadcastsInDim S8192x65 (![] : Fin 0 → Fin S8192x65.rank)
  dot_S8192x65_S65x65_S8192x65_1_0_0_1_n_n_wf : DotDims.WF S8192x65 S65x65 S8192x65 [1] [0] [0] [1] [] []
  dot_S8192x8192_S8192x65_S8192x65_1_0_0_1_n_n_wf : DotDims.WF S8192x8192 S8192x65 S8192x65 [1] [0] [0] [1] [] []

variable [Facts₀]

def dot_S8192x65_S65x65_S8192x65_1_0_0_1_n_n : DotDims S8192x65 S65x65 S8192x65 where
  lhsContracting := [1]
  rhsContracting := [0]
  lhsNonContracting := [0]
  rhsNonContracting := [1]
  lhsBatch := []
  rhsBatch := []
  wf := dot_S8192x65_S65x65_S8192x65_1_0_0_1_n_n_wf
def dot_S8192x8192_S8192x65_S8192x65_1_0_0_1_n_n : DotDims S8192x8192 S8192x65 S8192x65 where
  lhsContracting := [1]
  rhsContracting := [0]
  lhsNonContracting := [0]
  rhsNonContracting := [1]
  lhsBatch := []
  rhsBatch := []
  wf := dot_S8192x8192_S8192x65_S8192x65_1_0_0_1_n_n_wf

class Facts : Prop extends Facts₀ where

variable [Facts]
-- ==== Proof.KConds.lean ====
import proofs.«162940_g91027536872107_cont_sun_m_1130_33_alg».proof.Proof.Gen.Kernel.Frame
import proofs.«162940_g91027536872107_cont_sun_m_1130_33_alg».proof.Proof.Gen.Kernel.Skeleton
import Idealize.ShloMosaic.Lib.WritesUnit
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four branch conditions of the body, as propositions over a grid point's coordinates -/

/-- First point of the first pass: both coordinates are zero. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- First point of the second pass: coordinate 0 is one, coordinate 1 is zero. -/
abbrev condC (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- First pass (coordinate 0 is zero). -/
abbrev cond3 (i : grid0.Coords) : Prop := k0_cond3 i = 1#1
/-- Second pass (coordinate 0 is one). -/
abbrev cond4 (i : grid0.Coords) : Prop := k0_cond4 i = 1#1

/-- The grid is 2 × 32 in row-major order: point t has coordinates (t / 32, t % 32). The conditions in closed form. -/
theorem hcondA : ∀ t : Fin cfg0.N, condA (grid0.coords t) ↔ t.val = 0 :=
  (by decide +kernel : ∀ t : Fin grid0.N, condA (grid0.coords t) ↔ t.val = 0)
theorem hcondC : ∀ t : Fin cfg0.N, condC (grid0.coords t) ↔ t.val = 32 :=
  (by decide +kernel : ∀ t : Fin grid0.N, condC (grid0.coords t) ↔ t.val = 32)
theorem hcond3 : ∀ t : Fin cfg0.N, cond3 (grid0.coords t) ↔ t.val < 32 :=
  (by decide +kernel : ∀ t : Fin grid0.N, cond3 (grid0.coords t) ↔ t.val < 32)
theorem hcond4 : ∀ t : Fin cfg0.N, cond4 (grid0.coords t) ↔ 32 ≤ t.val :=
  (by decide +kernel : ∀ t : Fin grid0.N, cond4 (grid0.coords t) ↔ 32 ≤ t.val)

/-- In the first pass the row offset of the slice of the second scratch that point t writes is 256·t. -/
theorem hoff : ∀ t : Fin cfg0.N, t.val < 32 → k0_off1 (grid0.coords t) = ![256 * t.val, 0] :=
  (by decide +kernel : ∀ t : Fin grid0.N, t.val < 32 → k0_off1 (grid0.coords t) = ![256 * t.val, 0])

/-! ## Where the windows are idle, and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle throughout the first pass, -/
theorem idleAt0_6 : ∀ t : Fin cfg0.N, t.val < 32 → cfg0.idle 6 (grid0.coords t) = true := by decide +kernel
/-- is not written back there (its block index stays 0 until the second point of the second pass), -/
theorem noFlush0_6 : ∀ t : Fin cfg0.N, t.val < 32 → (cfg0.win 6).flush t = false := by decide +kernel
/-- is live throughout the second pass, -/
theorem liveAt0_6 : ∀ t : Fin cfg0.N, 32 ≤ t.val → cfg0.idle 6 (grid0.coords t) = false := by decide +kernel
/-- and is written back at every point of the second pass. -/
theorem flush0_6 : ∀ t : Fin cfg0.N, (cfg0.win 6).flush t = true ↔ 32 ≤ t.val :=
  (by decide +kernel : ∀ t : Fin grid0.N, win0_6.flush t = true ↔ 32 ≤ t.val)

/-! ## The staging memrefs at a point, and the two scratch buffers -/

abbrev ms0_0 (t : Fin cfg0.N) : Memref sig .tc .vmem S8192x65 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S65x65 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x65 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S65x65 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x65 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x65 .f32 := win0_6.stage (cfg0.slots t 6)
abbrev hs0_6 (t : Fin cfg0.N) : (ms0_6 t).IsWhole := hstage0_6 ((cfg0.slots t 6).cast nbuf0_6)
/-- The first scratch (the small product the big product is taken against) and the second (the hidden layer). -/
abbrev scM0 : Memref sig .tc .vmem S8192x65 .f32 := Memref.whole cc0_scratch0
abbrev scM1 : Memref sig .tc .vmem S8192x65 .f32 := Memref.whole cc0_scratch1

/-- What the launch hands the region besides the windows: both scratch buffers at some contents, and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## A slice of 256 rows written over an 8192 × 65 array -/

/-- The array `s` with rows [o, o + 256) replaced by the rows of `w`. -/
def slice (o : ℕ) (s : Vec F S8192x65 .f32) (w : Vec F S256x65 .f32) : Vec F S8192x65 .f32 :=
  fun y => if h : o ≤ (y (0 : Fin 2)).val ∧ (y (0 : Fin 2)).val < o + 256 then
      w (Rect.unitLocal (s := S8192x65) (off := ![o, 0]) (size := S256x65.size) y (Rect.unit_rows_mem y rfl rfl h))
    else s y

end Cert.Kernel.Gen

end
-- ==== Proof.KRunA.lean ====
import proofs.«162940_g91027536872107_cont_sun_m_1130_33_alg».proof.Proof.Gen.Kernel.Frame
import proofs.«162940_g91027536872107_cont_sun_m_1130_33_alg».proof.Proof.Gen.Kernel.Skeleton
import Idealize.ShloMosaic.Lib.WritesUnit
import Idealize.ShloMosaic.Lib.Pipeline.Value
import proofs.«162940_g91027536872107_cont_sun_m_1130_33_alg».proof.Proof.KConds
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2A : (![0, 0] : Fin 2 → ℕ) = fun _ => 0 := by funext a; fin_cases a <;> rfl

set_option maxHeartbeats 1000000 in
/-- The body at a point of case A: on whole memrefs at named contents it runs to its end, leaves every input where it
    was, and leaves the output buffer and the two scratch buffers at the named contents (the equations say what they are
    in terms of what the body loaded). -/
theorem runA (c : Dev nD) (i : grid0.Coords)
    (arg2 : Memref sig .tc .vmem S8192x65 .f32) (harg2 : arg2.IsWhole) (arg3 : Memref sig .tc .vmem S256x8192 .f32) (harg3 : arg3.IsWhole)
    (arg4 : Memref sig .tc .vmem S65x65 .f32) (harg4 : arg4.IsWhole) (arg5 : Memref sig .tc .vmem S1x65 .f32) (harg5 : arg5.IsWhole)
    (arg6 : Memref sig .tc .vmem S65x65 .f32) (harg6 : arg6.IsWhole) (arg7 : Memref sig .tc .vmem S1x65 .f32) (harg7 : arg7.IsWhole)
    (arg8 : Memref sig .tc .vmem S256x65 .f32) (harg8 : arg8.IsWhole) (arg9 : Memref sig .tc .vmem S8192x65 .f32) (harg9 : arg9.IsWhole)
    (arg10 : Memref sig .tc .vmem S8192x65 .f32) (harg10 : arg10.IsWhole)
    (hc1 : condA i) (hc2 : ¬condC i) (hc3 : cond3 i) (hc4 : ¬cond4 i) (o : ℕ) (hoff : k0_off1 i = ![o, 0])
    (x0 : Vec F S8192x65 .f32) (x1 : Vec F S256x8192 .f32) (x2 : Vec F S65x65 .f32) (x3 : Vec F S1x65 .f32) (x4 : Vec F S65x65 .f32) (x5 : Vec F S1x65 .f32)
    (x6 : Vec F S256x65 .f32) (s0 : Vec F S8192x65 .f32) (s1 : Vec F S8192x65 .f32)
    (S0' S1' : Vec F S8192x65 .f32) (e0 : k0_pay1 x0 x2 = S0') (e1 : slice o s1 (k0_pay4 x1 (k0_pay1 x0 x2) x3) = S1')
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare s0 ∗ owns (c : Thread nD τ) arg10 fullShare s1
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare S0' ∗ owns (c : Thread nD τ) arg10 fullShare S1') -∗ K ⟨⟩))
    ⊢ wp frame (wpE (defs₀ (F := F)) Variants.none c none) E (cc0__gcn2_body i arg2 harg2 arg3 harg3 arg4 harg4 arg5 harg5 arg6 harg6 arg7 harg7 arg8 harg8 arg9 harg9 arg10 harg10) K := by
  subst e0 e1
  have hz2 := hz2A
  simp only [cc0__gcn2_body_eq_skeleton]; unfold cc0__gcn2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc1 | exact hc2 | exact hc3 | exact hc4)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    rw [View.read_writes_eq_canon, View.canon_unit_zero hz2]
    · simp only [View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]
    · intro y; refine ⟨_, List.mem_singleton_self _, ?_⟩
      dsimp only
      exact View.mem_set_unit_zero hz2 _ y
  · iexists _; isplitr
    swap; · iexact HS1
    ipureintro
    funext y
    rw [View.read_writes_cons_rows (d := ![8192, 65]) (off := k0_off1 i) (size := S256x65.size) (o := o) (W := 256) _ _ _ _ [] y hoff rfl rfl]
    unfold slice
    simp only [View.writes_nil, View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]

end Cert.Kernel.Gen

end
-- ==== Proof.KRunB.lean ====
import proofs.«162940_g91027536872107_cont_sun_m_1130_33_alg».proof.Proof.Gen.Kernel.Frame
import proofs.«162940_g91027536872107_cont_sun_m_1130_33_alg».proof.Proof.Gen.Kernel.Skeleton
import Idealize.ShloMosaic.Lib.WritesUnit
import Idealize.ShloMosaic.Lib.Pipeline.Value
import proofs.«162940_g91027536872107_cont_sun_m_1130_33_alg».proof.Proof.KConds
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2B : (![0, 0] : Fin 2 → ℕ) = fun _ => 0 := by funext a; fin_cases a <;> rfl

set_option maxHeartbeats 1000000 in
/-- The body at a point of case B: on whole memrefs at named contents it runs to its end, leaves every input where it
    was, and leaves the output buffer and the two scratch buffers at the named contents (the equations say what they are
    in terms of what the body loaded). -/
theorem runB (c : Dev nD) (i : grid0.Coords)
    (arg2 : Memref sig .tc .vmem S8192x65 .f32) (harg2 : arg2.IsWhole) (arg3 : Memref sig .tc .vmem S256x8192 .f32) (harg3 : arg3.IsWhole)
    (arg4 : Memref sig .tc .vmem S65x65 .f32) (harg4 : arg4.IsWhole) (arg5 : Memref sig .tc .vmem S1x65 .f32) (harg5 : arg5.IsWhole)
    (arg6 : Memref sig .tc .vmem S65x65 .f32) (harg6 : arg6.IsWhole) (arg7 : Memref sig .tc .vmem S1x65 .f32) (harg7 : arg7.IsWhole)
    (arg8 : Memref sig .tc .vmem S256x65 .f32) (harg8 : arg8.IsWhole) (arg9 : Memref sig .tc .vmem S8192x65 .f32) (harg9 : arg9.IsWhole)
    (arg10 : Memref sig .tc .vmem S8192x65 .f32) (harg10 : arg10.IsWhole)
    (hc1 : ¬condA i) (hc2 : ¬condC i) (hc3 : cond3 i) (hc4 : ¬cond4 i) (o : ℕ) (hoff : k0_off1 i = ![o, 0])
    (x0 : Vec F S8192x65 .f32) (x1 : Vec F S256x8192 .f32) (x2 : Vec F S65x65 .f32) (x3 : Vec F S1x65 .f32) (x4 : Vec F S65x65 .f32) (x5 : Vec F S1x65 .f32)
    (x6 : Vec F S256x65 .f32) (s0 : Vec F S8192x65 .f32) (s1 : Vec F S8192x65 .f32)
    (S1' : Vec F S8192x65 .f32) (e1 : slice o s1 (k0_pay4 x1 s0 x3) = S1')
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare s0 ∗ owns (c : Thread nD τ) arg10 fullShare s1
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare s0 ∗ owns (c : Thread nD τ) arg10 fullShare S1') -∗ K ⟨⟩))
    ⊢ wp frame (wpE (defs₀ (F := F)) Variants.none c none) E (cc0__gcn2_body i arg2 harg2 arg3 harg3 arg4 harg4 arg5 harg5 arg6 harg6 arg7 harg7 arg8 harg8 arg9 harg9 arg10 harg10) K := by
  subst e1
  have hz2 := hz2B
  simp only [cc0__gcn2_body_eq_skeleton]; unfold cc0__gcn2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc1 | exact hc2 | exact hc3 | exact hc4)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  · iexists _; isplitr
    swap; · iexact HS1
    ipureintro
    funext y
    rw [View.read_writes_cons_rows (d := ![8192, 65]) (off := k0_off1 i) (size := S256x65.size) (o := o) (W := 256) _ _ _ _ [] y hoff rfl rfl]
    unfold slice
    simp only [View.writes_nil, View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]

end Cert.Kernel.Gen

end
-- ==== Proof.KRunC.lean ====
import proofs.«162940_g91027536872107_cont_sun_m_1130_33_alg».proof.Proof.Gen.Kernel.Frame
import proofs.«162940_g91027536872107_cont_sun_m_1130_33_alg».proof.Proof.Gen.Kernel.Skeleton
import Idealize.ShloMosaic.Lib.WritesUnit
import Idealize.ShloMosaic.Lib.Pipeline.Value
import proofs.«162940_g91027536872107_cont_sun_m_1130_33_alg».proof.Proof.KConds
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2C : (![0, 0] : Fin 2 → ℕ) = fun _ => 0 := by funext a; fin_cases a <;> rfl

set_option maxHeartbeats 1000000 in
/-- The body at a point of case C: on whole memrefs at named contents it runs to its end, leaves every input where it
    was, and leaves the output buffer and the two scratch buffers at the named contents (the equations say what they are
    in terms of what the body loaded). -/
theorem runC (c : Dev nD) (i : grid0.Coords)
    (arg2 : Memref sig .tc .vmem S8192x65 .f32) (harg2 : arg2.IsWhole) (arg3 : Memref sig .tc .vmem S256x8192 .f32) (harg3 : arg3.IsWhole)
    (arg4 : Memref sig .tc .vmem S65x65 .f32) (harg4 : arg4.IsWhole) (arg5 : Memref sig .tc .vmem S1x65 .f32) (harg5 : arg5.IsWhole)
    (arg6 : Memref sig .tc .vmem S65x65 .f32) (harg6 : arg6.IsWhole) (arg7 : Memref sig .tc .vmem S1x65 .f32) (harg7 : arg7.IsWhole)
    (arg8 : Memref sig .tc .vmem S256x65 .f32) (harg8 : arg8.IsWhole) (arg9 : Memref sig .tc .vmem S8192x65 .f32) (harg9 : arg9.IsWhole)
    (arg10 : Memref sig .tc .vmem S8192x65 .f32) (harg10 : arg10.IsWhole)
    (hc1 : ¬condA i) (hc2 : condC i) (hc3 : ¬cond3 i) (hc4 : cond4 i)
    (x0 : Vec F S8192x65 .f32) (x1 : Vec F S256x8192 .f32) (x2 : Vec F S65x65 .f32) (x3 : Vec F S1x65 .f32) (x4 : Vec F S65x65 .f32) (x5 : Vec F S1x65 .f32)
    (x6 : Vec F S256x65 .f32) (s0 : Vec F S8192x65 .f32) (s1 : Vec F S8192x65 .f32)
    (S0' : Vec F S8192x65 .f32) (O' : Vec F S256x65 .f32) (e0 : k0_pay2 s1 x4 = S0') (e6 : k0_pay5 x1 (k0_pay2 s1 x4) x5 = O')
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare s0 ∗ owns (c : Thread nD τ) arg10 fullShare s1
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
          ∗ owns (c : Thread nD τ) arg8 fullShare O' ∗ owns (c : Thread nD τ) arg9 fullShare S0' ∗ owns (c : Thread nD τ) arg10 fullShare s1) -∗ K ⟨⟩))
    ⊢ wp frame (wpE (defs₀ (F := F)) Variants.none c none) E (cc0__gcn2_body i arg2 harg2 arg3 harg3 arg4 harg4 arg5 harg5 arg6 harg6 arg7 harg7 arg8 harg8 arg9 harg9 arg10 harg10) K := by
  subst e0 e6
  have hz2 := hz2C
  simp only [cc0__gcn2_body_eq_skeleton]; unfold cc0__gcn2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc1 | exact hc2 | exact hc3 | exact hc4)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon, View.canon_unit_zero hz2]
    · simp only [View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]
    · intro y; refine ⟨_, List.mem_singleton_self _, ?_⟩
      dsimp only
      exact View.mem_set_unit_zero hz2 _ y
  isplitl [HS0]
  · iexists _; isplitr
    swap; · iexact HS0
    ipureintro
    rw [View.read_writes_eq_canon, View.canon_unit_zero hz2]
    · simp only [View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]
    · intro y; refine ⟨_, List.mem_singleton_self _, ?_⟩
      dsimp only
      exact View.mem_set_unit_zero hz2 _ y
  iexists _; isplitr; · ipureintro; exact harg10.read_unread _
  iexact HS1

end Cert.Kernel.Gen

end
-- ==== Proof.KRunD.lean ====
import proofs.«162940_g91027536872107_cont_sun_m_1130_33_alg».proof.Proof.Gen.Kernel.Frame
import proofs.«162940_g91027536872107_cont_sun_m_1130_33_alg».proof.Proof.Gen.Kernel.Skeleton
import Idealize.ShloMosaic.Lib.WritesUnit
import Idealize.ShloMosaic.Lib.Pipeline.Value
import proofs.«162940_g91027536872107_cont_sun_m_1130_33_alg».proof.Proof.KConds
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2D : (![0, 0] : Fin 2 → ℕ) = fun _ => 0 := by funext a; fin_cases a <;> rfl

set_option maxHeartbeats 1000000 in
/-- The body at a point of case D: on whole memrefs at named contents it runs to its end, leaves every input where it
    was, and leaves the output buffer and the two scratch buffers at the named contents (the equations say what they are
    in terms of what the body loaded). -/
theorem runD (c : Dev nD) (i : grid0.Coords)
    (arg2 : Memref sig .tc .vmem S8192x65 .f32) (harg2 : arg2.IsWhole) (arg3 : Memref sig .tc .vmem S256x8192 .f32) (harg3 : arg3.IsWhole)
    (arg4 : Memref sig .tc .vmem S65x65 .f32) (harg4 : arg4.IsWhole) (arg5 : Memref sig .tc .vmem S1x65 .f32) (harg5 : arg5.IsWhole)
    (arg6 : Memref sig .tc .vmem S65x65 .f32) (harg6 : arg6.IsWhole) (arg7 : Memref sig .tc .vmem S1x65 .f32) (harg7 : arg7.IsWhole)
    (arg8 : Memref sig .tc .vmem S256x65 .f32) (harg8 : arg8.IsWhole) (arg9 : Memref sig .tc .vmem S8192x65 .f32) (harg9 : arg9.IsWhole)
    (arg10 : Memref sig .tc .vmem S8192x65 .f32) (harg10 : arg10.IsWhole)
    (hc1 : ¬condA i) (hc2 : ¬condC i) (hc3 : ¬cond3 i) (hc4 : cond4 i)
    (x0 : Vec F S8192x65 .f32) (x1 : Vec F S256x8192 .f32) (x2 : Vec F S65x65 .f32) (x3 : Vec F S1x65 .f32) (x4 : Vec F S65x65 .f32) (x5 : Vec F S1x65 .f32)
    (x6 : Vec F S256x65 .f32) (s0 : Vec F S8192x65 .f32) (s1 : Vec F S8192x65 .f32)
    (O' : Vec F S256x65 .f32) (e6 : k0_pay5 x1 s0 x5 = O')
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare s0 ∗ owns (c : Thread nD τ) arg10 fullShare s1
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
          ∗ owns (c : Thread nD τ) arg8 fullShare O' ∗ owns (c : Thread nD τ) arg9 fullShare s0 ∗ owns (c : Thread nD τ) arg10 fullShare s1) -∗ K ⟨⟩))
    ⊢ wp frame (wpE (defs₀ (F := F)) Variants.none c none) E (cc0__gcn2_body i arg2 harg2 arg3 harg3 arg4 harg4 arg5 harg5 arg6 harg6 arg7 harg7 arg8 harg8 arg9 harg9 arg10 harg10) K := by
  subst e6
  have hz2 := hz2D
  simp only [cc0__gcn2_body_eq_skeleton]; unfold cc0__gcn2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc1 | exact hc2 | exact hc3 | exact hc4)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon, View.canon_unit_zero hz2]
    · simp only [View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]
    · intro y; refine ⟨_, List.mem_singleton_self _, ?_⟩
      dsimp only
      exact View.mem_set_unit_zero hz2 _ y
  isplitl [HS0]
  · iexists _; isplitr; · ipureintro; exact harg9.read_unread _
    iexact HS0
  iexists _; isplitr; · ipureintro; exact harg10.read_unread _
  iexact HS1

end Cert.Kernel.Gen

end
-- ==== Proof.KData.lean ====
import proofs.«162940_g91027536872107_cont_sun_m_1130_33_alg».proof.Proof.Gen.Kernel.Frame
import proofs.«162940_g91027536872107_cont_sun_m_1130_33_alg».proof.Proof.Gen.Kernel.Skeleton
import Idealize.ShloMosaic.Lib.WritesUnit
import Idealize.ShloMosaic.Lib.Pipeline.Value
import proofs.«162940_g91027536872107_cont_sun_m_1130_33_alg».proof.Proof.KRunA
import proofs.«162940_g91027536872107_cont_sun_m_1130_33_alg».proof.Proof.KRunB
import proofs.«162940_g91027536872107_cont_sun_m_1130_33_alg».proof.Proof.KRunC
import proofs.«162940_g91027536872107_cont_sun_m_1130_33_alg».proof.Proof.KRunD
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch buffers and the output blocks hold, in terms of the input blocks

The grid's 64 points run the first pass (points 0–31) then the second (points 32–63). Point 0 forms the small product
X·W1 once; point t < 32 forms rows [256t, 256t + 256) of the hidden layer relu(A·(X·W1) + b1); point 32 forms the small
product H·W2 once; point t ≥ 32 forms rows [256(t−32), 256(t−32) + 256) of relu(A·(H·W2) + b2) in the output block. -/

theorem N64 : cfg0.N = 64 := N_0
abbrev t0 : Fin cfg0.N := ⟨0, lt_of_lt_of_eq (by omega : (0 : ℕ) < 64) N_0.symm⟩
abbrev t32 : Fin cfg0.N := ⟨32, lt_of_lt_of_eq (by omega : (32 : ℕ) < 64) N_0.symm⟩

/-- X·W1, as point 0 computes it. -/
def XW (c : Dev nD) : Vec F S8192x65 .f32 := k0_pay1 (iblk m c 0 t0) (iblk m c 2 t0)

/-- Row y₀ of the hidden layer, as point k computes it when y₀ lies in its 256 rows. -/
def Hrow (c : Dev nD) (k : ℕ) (hk : k < cfg0.N) (y : S8192x65.Idx)
    (h : 256 * k ≤ (y (0 : Fin 2)).val ∧ (y (0 : Fin 2)).val < 256 * k + 256) : F .f32 :=
  k0_pay4 (iblk m c 1 ⟨k, hk⟩) (XW m c) (iblk m c 3 ⟨k, hk⟩)
    (Rect.unitLocal (s := S8192x65) (off := ![256 * k, 0]) (size := S256x65.size) y (Rect.unit_rows_mem y rfl rfl h))

theorem Hrow_congr (c : Dev nD) {k k' : ℕ} (e : k = k') (hk : k < cfg0.N) (hk' : k' < cfg0.N) (y : S8192x65.Idx) (h) (h') :
    Hrow m c k hk y h = Hrow m c k' hk' y h' := by subst e; rfl

/-- The whole hidden layer: row y₀ is computed by point y₀ / 256. -/
def Hfull (c : Dev nD) : Vec F S8192x65 .f32 := fun y =>
  Hrow m c ((y (0 : Fin 2)).val / 256)
    (by have : (y (0 : Fin 2)).val < 8192 := (y (0 : Fin 2)).isLt
        rw [N64]; omega) y
    (by omega)

/-- The second scratch after the first n points of the first pass: the hidden layer on rows below 256·n, and whatever
    the buffer held (d) on the others. -/
def Hupto (c : Dev nD) (n : ℕ) (d : Vec F S8192x65 .f32) : Vec F S8192x65 .f32 := fun y =>
  if (y (0 : Fin 2)).val < 256 * n then Hfull m c y else d y

theorem Hupto_zero (c : Dev nD) (d : Vec F S8192x65 .f32) : Hupto m c 0 d = d := by
  funext y; unfold Hupto; rw [if_neg (by omega)]

theorem Hupto_full (c : Dev nD) (d : Vec F S8192x65 .f32) : Hupto m c 32 d = Hfull m c := by
  funext y; unfold Hupto
  have : (y (0 : Fin 2)).val < 8192 := (y (0 : Fin 2)).isLt
  rw [if_pos (by omega)]

/-- Point t of the first pass extends the rows filled by its own 256. -/
theorem slice_Hupto (c : Dev nD) (t : Fin cfg0.N) (ht : t.val < 32) (d s : Vec F S8192x65 .f32) (hs : s = Hupto m c t.val d) :
    slice (256 * t.val) s (k0_pay4 (iblk m c 1 t) (XW m c) (iblk m c 3 t)) = Hupto m c (t.val + 1) d := by
  subst hs
  funext y
  unfold slice Hupto
  by_cases h : 256 * t.val ≤ (y (0 : Fin 2)).val ∧ (y (0 : Fin 2)).val < 256 * t.val + 256
  · rw [dif_pos h, if_pos (by omega)]
    unfold Hfull
    exact Hrow_congr m c (by omega) t.isLt _ y h _
  · rw [dif_neg h]
    by_cases h2 : (y (0 : Fin 2)).val < 256 * t.val
    · rw [if_pos h2, if_pos (by omega)]
    · rw [if_neg h2, if_neg (by omega)]

/-- H·W2, as point 32 computes it. -/
def HW2 (c : Dev nD) : Vec F S8192x65 .f32 := k0_pay2 (Hfull m c) (iblk m c 4 t32)

/-- The output block of point t (meaningful in the second pass). -/
def Oblk (c : Dev nD) (t : Fin cfg0.N) : Vec F S256x65 .f32 := k0_pay5 (iblk m c 1 t) (HW2 m c) (iblk m c 5 t)

/-! ## The region invariant, point by point -/

/-- Before point n: at the start both scratch buffers hold anything; during the first pass the first holds X·W1 and
    the second the hidden layer on the rows filled so far; from point 33 on the first holds H·W2. -/
def PhiS (c : Dev nD) : (n : ℕ) → n ≤ cfg0.N → sProp 𝕄
  | 0, _ => Pipeline.ΦA spec0 c
  | n + 1, _ =>
    if n + 1 ≤ 32 then
      iprop(iprop(owns (c : Thread nD τ) scM0 fullShare (XW m c) ∗ (∃ d, owns (c : Thread nD τ) scM1 fullShare (Hupto m c (n + 1) d))) ∗ (∃ r, prngReg c r))
    else
      iprop(iprop(owns (c : Thread nD τ) scM0 fullShare (HW2 m c) ∗ (∃ d, owns (c : Thread nD τ) scM1 fullShare d)) ∗ (∃ r, prngReg c r))

theorem PhiS_zero (c : Dev nD) (n : ℕ) (h : n ≤ cfg0.N) (hz : n = 0) : PhiS m c n h = Pipeline.ΦA spec0 c := by
  subst hz; rfl

theorem PhiS_lo (c : Dev nD) (n : ℕ) (h : n ≤ cfg0.N) (hz : n ≠ 0) (hn : n ≤ 32) :
    PhiS m c n h = iprop(iprop(owns (c : Thread nD τ) scM0 fullShare (XW m c) ∗ (∃ d, owns (c : Thread nD τ) scM1 fullShare (Hupto m c n d))) ∗ (∃ r, prngReg c r)) := by
  cases n with
  | zero => exact absurd rfl hz
  | succ n => exact if_pos hn

theorem PhiS_hi (c : Dev nD) (n : ℕ) (h : n ≤ cfg0.N) (hn : 32 < n) :
    PhiS m c n h = iprop(iprop(owns (c : Thread nD τ) scM0 fullShare (HW2 m c) ∗ (∃ d, owns (c : Thread nD τ) scM1 fullShare d)) ∗ (∃ r, prngReg c r)) := by
  cases n with
  | zero => exact absurd hn (by omega)
  | succ n => exact if_neg (by omega)

/-! ## The pipeline's proof data -/

/-- After the body at point t each input's buffer holds its block and the output's holds `Oblk` (consulted only in the
    second pass: in the first the window is idle and not written back). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Oblk m c t
    | ⟨_ + 7, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = Oblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Gen

end
-- ==== Proof.KBody.lean ====
import proofs.«162940_g91027536872107_cont_sun_m_1130_33_alg».proof.Proof.Gen.Kernel.Frame
import proofs.«162940_g91027536872107_cont_sun_m_1130_33_alg».proof.Proof.Gen.Kernel.Skeleton
import Idealize.ShloMosaic.Lib.WritesUnit
import Idealize.ShloMosaic.Lib.Pipeline.Value
import proofs.«162940_g91027536872107_cont_sun_m_1130_33_alg».proof.Proof.KData
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The point's position decides its case: point 0 forms X·W1 and the first 256 rows of the hidden
    layer; a later point of the first pass forms its own 256 rows; point 32 finds the hidden layer complete, forms H·W2 and
    the first output block; a later point of the second pass forms its own output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl]
  rw [PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 64 := lt_of_lt_of_eq t.isLt N64
  by_cases hlo : t.val < 32
  · rw [Dat.leavesExact_idle (dats m 0 c) 6 t (idleAt0_6 t hlo) (noFlush0_6 t hlo)]
    rw [PhiS_lo m c (t.val + 1) _ (by omega) (by omega)]
    by_cases hz : t.val = 0
    · rw [PhiS_zero m c _ _ hz, PhiA0_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      have e0 : k0_pay1 (iblk m c 0 t) (iblk m c 2 t) = XW m c := by rw [show t = t0 from Fin.ext hz]; rfl
      have e1 : slice (256 * t.val) ds1 (k0_pay4 (iblk m c 1 t) (k0_pay1 (iblk m c 0 t) (iblk m c 2 t)) (iblk m c 3 t)) = Hupto m c (t.val + 1) ds1 := by
        rw [e0]; exact slice_Hupto m c t hlo ds1 ds1 (by rw [hz, Hupto_zero])
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
        ((hcondA t).mpr hz) (fun h => by have := (hcondC t).mp h; omega) ((hcond3 t).mpr hlo) (fun h => by have := (hcond4 t).mp h; omega)
        (256 * t.val) (hoff t hlo) (iblk m c 0 t) (iblk m c 1 t) (iblk m c 2 t) (iblk m c 3 t) (iblk m c 4 t) (iblk m c 5 t) ((dats m 0 c).before 6 t d6) ds0 ds1
        (XW m c) (Hupto m c (t.val + 1) ds1) e0 e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_lo m c t.val _ hz (by omega)]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
        (fun h => hz ((hcondA t).mp h)) (fun h => by have := (hcondC t).mp h; omega) ((hcond3 t).mpr hlo) (fun h => by have := (hcond4 t).mp h; omega)
        (256 * t.val) (hoff t hlo) (iblk m c 0 t) (iblk m c 1 t) (iblk m c 2 t) (iblk m c 3 t) (iblk m c 4 t) (iblk m c 5 t) ((dats m 0 c).before 6 t d6) (XW m c) (Hupto m c t.val ds1)
        (Hupto m c (t.val + 1) ds1) (slice_Hupto m c t hlo ds1 _ rfl) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hhi : 32 ≤ t.val := by omega
    rw [show (dats m 0 c).leavesExact 6 t = owns (c : Thread nD τ) (ms0_6 t) fullShare ((dats m 0 c).after 6 t) from by
      unfold Dat.leavesExact; rw [liveAt0_6 t hhi], after0_6]
    rw [PhiS_hi m c (t.val + 1) _ (by omega)]
    by_cases hz : t.val = 32
    · rw [PhiS_lo m c t.val _ (by omega) (by omega)]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      have hs1 : Hupto m c t.val ds1 = Hfull m c := by rw [hz]; exact Hupto_full m c ds1
      have e0 : k0_pay2 (Hupto m c t.val ds1) (iblk m c 4 t) = HW2 m c := by
        rw [hs1, show t = t32 from Fin.ext hz]; rfl
      have e6 : k0_pay5 (iblk m c 1 t) (k0_pay2 (Hupto m c t.val ds1) (iblk m c 4 t)) (iblk m c 5 t) = Oblk m c t := by
        rw [e0]; rfl
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
        (fun h => by have := (hcondA t).mp h; omega) ((hcondC t).mpr hz) (fun h => by have := (hcond3 t).mp h; omega) ((hcond4 t).mpr hhi)
        (iblk m c 0 t) (iblk m c 1 t) (iblk m c 2 t) (iblk m c 3 t) (iblk m c 4 t) (iblk m c 5 t) ((dats m 0 c).before 6 t d6) (XW m c) (Hupto m c t.val ds1)
        (HW2 m c) (Oblk m c t) e0 e6 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_hi m c t.val _ (by omega)]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
        (fun h => by have := (hcondA t).mp h; omega) (fun h => hz ((hcondC t).mp h)) (fun h => by have := (hcond3 t).mp h; omega) ((hcond4 t).mpr hhi)
        (iblk m c 0 t) (iblk m c 1 t) (iblk m c 2 t) (iblk m c 3 t) (iblk m c 4 t) (iblk m c 5 t) ((dats m 0 c).before 6 t d6) (HW2 m c) ds1
        (Oblk m c t) rfl Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_hi m c _ _ (by rw [Fin.val_last, N64]; omega), PhiA0_eq]
  iintro ⟨⟨HS0, ⟨%d, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and in every final state each array of the pipeline holds what the
    write-backs of the proof data leave in it, every other unscoped buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.KIConds.lean ====
import proofs.«162940_g91027536872107_cont_sun_m_1130_33_alg».proof.Proof.Gen.KernelIdeal.Frame
import proofs.«162940_g91027536872107_cont_sun_m_1130_33_alg».proof.Proof.Gen.KernelIdeal.Skeleton
import Idealize.ShloMosaic.Lib.WritesUnit
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four branch conditions of the body, as propositions over a grid point's coordinates -/

/-- First point of the first pass: both coordinates are zero. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- First point of the second pass: coordinate 0 is one, coordinate 1 is zero. -/
abbrev condC (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- First pass (coordinate 0 is zero). -/
abbrev cond3 (i : grid0.Coords) : Prop := k0_cond3 i = 1#1
/-- Second pass (coordinate 0 is one). -/
abbrev cond4 (i : grid0.Coords) : Prop := k0_cond4 i = 1#1

/-- The grid is 2 × 32 in row-major order: point t has coordinates (t / 32, t % 32). The conditions in closed form. -/
theorem hcondA : ∀ t : Fin cfg0.N, condA (grid0.coords t) ↔ t.val = 0 :=
  (by decide +kernel : ∀ t : Fin grid0.N, condA (grid0.coords t) ↔ t.val = 0)
theorem hcondC : ∀ t : Fin cfg0.N, condC (grid0.coords t) ↔ t.val = 32 :=
  (by decide +kernel : ∀ t : Fin grid0.N, condC (grid0.coords t) ↔ t.val = 32)
theorem hcond3 : ∀ t : Fin cfg0.N, cond3 (grid0.coords t) ↔ t.val < 32 :=
  (by decide +kernel : ∀ t : Fin grid0.N, cond3 (grid0.coords t) ↔ t.val < 32)
theorem hcond4 : ∀ t : Fin cfg0.N, cond4 (grid0.coords t) ↔ 32 ≤ t.val :=
  (by decide +kernel : ∀ t : Fin grid0.N, cond4 (grid0.coords t) ↔ 32 ≤ t.val)

/-- In the first pass the row offset of the slice of the second scratch that point t writes is 256·t. -/
theorem hoff : ∀ t : Fin cfg0.N, t.val < 32 → k0_off1 (grid0.coords t) = ![256 * t.val, 0] :=
  (by decide +kernel : ∀ t : Fin grid0.N, t.val < 32 → k0_off1 (grid0.coords t) = ![256 * t.val, 0])

/-! ## Where the windows are idle, and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle throughout the first pass, -/
theorem idleAt0_6 : ∀ t : Fin cfg0.N, t.val < 32 → cfg0.idle 6 (grid0.coords t) = true := by decide +kernel
/-- is not written back there (its block index stays 0 until the second point of the second pass), -/
theorem noFlush0_6 : ∀ t : Fin cfg0.N, t.val < 32 → (cfg0.win 6).flush t = false := by decide +kernel
/-- is live throughout the second pass, -/
theorem liveAt0_6 : ∀ t : Fin cfg0.N, 32 ≤ t.val → cfg0.idle 6 (grid0.coords t) = false := by decide +kernel
/-- and is written back at every point of the second pass. -/
theorem flush0_6 : ∀ t : Fin cfg0.N, (cfg0.win 6).flush t = true ↔ 32 ≤ t.val :=
  (by decide +kernel : ∀ t : Fin grid0.N, win0_6.flush t = true ↔ 32 ≤ t.val)

/-! ## The staging memrefs at a point, and the two scratch buffers -/

abbrev ms0_0 (t : Fin cfg0.N) : Memref sig .tc .vmem S8192x65 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S65x65 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x65 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S65x65 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x65 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x65 .f32 := win0_6.stage (cfg0.slots t 6)
abbrev hs0_6 (t : Fin cfg0.N) : (ms0_6 t).IsWhole := hstage0_6 ((cfg0.slots t 6).cast nbuf0_6)
/-- The first scratch (the small product the big product is taken against) and the second (the hidden layer). -/
abbrev scM0 : Memref sig .tc .vmem S8192x65 .f32 := Memref.whole cc0_scratch0
abbrev scM1 : Memref sig .tc .vmem S8192x65 .f32 := Memref.whole cc0_scratch1

/-- What the launch hands the region besides the windows: both scratch buffers at some contents, and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## A slice of 256 rows written over an 8192 × 65 array -/

/-- The array `s` with rows [o, o + 256) replaced by the rows of `w`. -/
def slice (o : ℕ) (s : Vec F S8192x65 .f32) (w : Vec F S256x65 .f32) : Vec F S8192x65 .f32 :=
  fun y => if h : o ≤ (y (0 : Fin 2)).val ∧ (y (0 : Fin 2)).val < o + 256 then
      w (Rect.unitLocal (s := S8192x65) (off := ![o, 0]) (size := S256x65.size) y (Rect.unit_rows_mem y rfl rfl h))
    else s y

end Cert.KernelIdeal.Gen

end
-- ==== Proof.KIRunA.lean ====
import proofs.«162940_g91027536872107_cont_sun_m_1130_33_alg».proof.Proof.Gen.KernelIdeal.Frame
import proofs.«162940_g91027536872107_cont_sun_m_1130_33_alg».proof.Proof.Gen.KernelIdeal.Skeleton
import Idealize.ShloMosaic.Lib.WritesUnit
import Idealize.ShloMosaic.Lib.Pipeline.Value
import proofs.«162940_g91027536872107_cont_sun_m_1130_33_alg».proof.Proof.KIConds
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2A : (![0, 0] : Fin 2 → ℕ) = fun _ => 0 := by funext a; fin_cases a <;> rfl

set_option maxHeartbeats 1000000 in
/-- The body at a point of case A: on whole memrefs at named contents it runs to its end, leaves every input where it
    was, and leaves the output buffer and the two scratch buffers at the named contents (the equations say what they are
    in terms of what the body loaded). -/
theorem runA (c : Dev nD) (i : grid0.Coords)
    (arg2 : Memref sig .tc .vmem S8192x65 .f32) (harg2 : arg2.IsWhole) (arg3 : Memref sig .tc .vmem S256x8192 .f32) (harg3 : arg3.IsWhole)
    (arg4 : Memref sig .tc .vmem S65x65 .f32) (harg4 : arg4.IsWhole) (arg5 : Memref sig .tc .vmem S1x65 .f32) (harg5 : arg5.IsWhole)
    (arg6 : Memref sig .tc .vmem S65x65 .f32) (harg6 : arg6.IsWhole) (arg7 : Memref sig .tc .vmem S1x65 .f32) (harg7 : arg7.IsWhole)
    (arg8 : Memref sig .tc .vmem S256x65 .f32) (harg8 : arg8.IsWhole) (arg9 : Memref sig .tc .vmem S8192x65 .f32) (harg9 : arg9.IsWhole)
    (arg10 : Memref sig .tc .vmem S8192x65 .f32) (harg10 : arg10.IsWhole)
    (hc1 : condA i) (hc2 : ¬condC i) (hc3 : cond3 i) (hc4 : ¬cond4 i) (o : ℕ) (hoff : k0_off1 i = ![o, 0])
    (x0 : Vec F S8192x65 .f32) (x1 : Vec F S256x8192 .f32) (x2 : Vec F S65x65 .f32) (x3 : Vec F S1x65 .f32) (x4 : Vec F S65x65 .f32) (x5 : Vec F S1x65 .f32)
    (x6 : Vec F S256x65 .f32) (s0 : Vec F S8192x65 .f32) (s1 : Vec F S8192x65 .f32)
    (S0' S1' : Vec F S8192x65 .f32) (e0 : k0_pay1 x0 x2 = S0') (e1 : slice o s1 (k0_pay4 x1 (k0_pay1 x0 x2) x3) = S1')
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare s0 ∗ owns (c : Thread nD τ) arg10 fullShare s1
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare S0' ∗ owns (c : Thread nD τ) arg10 fullShare S1') -∗ K ⟨⟩))
    ⊢ wp frame (wpE (defs₀ (F := F)) Variants.none c none) E (cc0__gcn2_body i arg2 harg2 arg3 harg3 arg4 harg4 arg5 harg5 arg6 harg6 arg7 harg7 arg8 harg8 arg9 harg9 arg10 harg10) K := by
  subst e0 e1
  have hz2 := hz2A
  simp only [cc0__gcn2_body_eq_skeleton]; unfold cc0__gcn2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc1 | exact hc2 | exact hc3 | exact hc4)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    rw [View.read_writes_eq_canon, View.canon_unit_zero hz2]
    · simp only [View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]
    · intro y; refine ⟨_, List.mem_singleton_self _, ?_⟩
      dsimp only
      exact View.mem_set_unit_zero hz2 _ y
  · iexists _; isplitr
    swap; · iexact HS1
    ipureintro
    funext y
    rw [View.read_writes_cons_rows (d := ![8192, 65]) (off := k0_off1 i) (size := S256x65.size) (o := o) (W := 256) _ _ _ _ [] y hoff rfl rfl]
    unfold slice
    simp only [View.writes_nil, View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]

end Cert.KernelIdeal.Gen

end
-- ==== Proof.KIRunB.lean ====
import proofs.«162940_g91027536872107_cont_sun_m_1130_33_alg».proof.Proof.Gen.KernelIdeal.Frame
import proofs.«162940_g91027536872107_cont_sun_m_1130_33_alg».proof.Proof.Gen.KernelIdeal.Skeleton
import Idealize.ShloMosaic.Lib.WritesUnit
import Idealize.ShloMosaic.Lib.Pipeline.Value
import proofs.«162940_g91027536872107_cont_sun_m_1130_33_alg».proof.Proof.KIConds
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2B : (![0, 0] : Fin 2 → ℕ) = fun _ => 0 := by funext a; fin_cases a <;> rfl

set_option maxHeartbeats 1000000 in
/-- The body at a point of case B: on whole memrefs at named contents it runs to its end, leaves every input where it
    was, and leaves the output buffer and the two scratch buffers at the named contents (the equations say what they are
    in terms of what the body loaded). -/
theorem runB (c : Dev nD) (i : grid0.Coords)
    (arg2 : Memref sig .tc .vmem S8192x65 .f32) (harg2 : arg2.IsWhole) (arg3 : Memref sig .tc .vmem S256x8192 .f32) (harg3 : arg3.IsWhole)
    (arg4 : Memref sig .tc .vmem S65x65 .f32) (harg4 : arg4.IsWhole) (arg5 : Memref sig .tc .vmem S1x65 .f32) (harg5 : arg5.IsWhole)
    (arg6 : Memref sig .tc .vmem S65x65 .f32) (harg6 : arg6.IsWhole) (arg7 : Memref sig .tc .vmem S1x65 .f32) (harg7 : arg7.IsWhole)
    (arg8 : Memref sig .tc .vmem S256x65 .f32) (harg8 : arg8.IsWhole) (arg9 : Memref sig .tc .vmem S8192x65 .f32) (harg9 : arg9.IsWhole)
    (arg10 : Memref sig .tc .vmem S8192x65 .f32) (harg10 : arg10.IsWhole)
    (hc1 : ¬condA i) (hc2 : ¬condC i) (hc3 : cond3 i) (hc4 : ¬cond4 i) (o : ℕ) (hoff : k0_off1 i = ![o, 0])
    (x0 : Vec F S8192x65 .f32) (x1 : Vec F S256x8192 .f32) (x2 : Vec F S65x65 .f32) (x3 : Vec F S1x65 .f32) (x4 : Vec F S65x65 .f32) (x5 : Vec F S1x65 .f32)
    (x6 : Vec F S256x65 .f32) (s0 : Vec F S8192x65 .f32) (s1 : Vec F S8192x65 .f32)
    (S1' : Vec F S8192x65 .f32) (e1 : slice o s1 (k0_pay4 x1 s0 x3) = S1')
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare s0 ∗ owns (c : Thread nD τ) arg10 fullShare s1
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare s0 ∗ owns (c : Thread nD τ) arg10 fullShare S1') -∗ K ⟨⟩))
    ⊢ wp frame (wpE (defs₀ (F := F)) Variants.none c none) E (cc0__gcn2_body i arg2 harg2 arg3 harg3 arg4 harg4 arg5 harg5 arg6 harg6 arg7 harg7 arg8 harg8 arg9 harg9 arg10 harg10) K := by
  subst e1
  have hz2 := hz2B
  simp only [cc0__gcn2_body_eq_skeleton]; unfold cc0__gcn2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc1 | exact hc2 | exact hc3 | exact hc4)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  · iexists _; isplitr
    swap; · iexact HS1
    ipureintro
    funext y
    rw [View.read_writes_cons_rows (d := ![8192, 65]) (off := k0_off1 i) (size := S256x65.size) (o := o) (W := 256) _ _ _ _ [] y hoff rfl rfl]
    unfold slice
    simp only [View.writes_nil, View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]

end Cert.KernelIdeal.Gen

end
-- ==== Proof.KIRunC.lean ====
import proofs.«162940_g91027536872107_cont_sun_m_1130_33_alg».proof.Proof.Gen.KernelIdeal.Frame
import proofs.«162940_g91027536872107_cont_sun_m_1130_33_alg».proof.Proof.Gen.KernelIdeal.Skeleton
import Idealize.ShloMosaic.Lib.WritesUnit
import Idealize.ShloMosaic.Lib.Pipeline.Value
import proofs.«162940_g91027536872107_cont_sun_m_1130_33_alg».proof.Proof.KIConds
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2C : (![0, 0] : Fin 2 → ℕ) = fun _ => 0 := by funext a; fin_cases a <;> rfl

set_option maxHeartbeats 1000000 in
/-- The body at a point of case C: on whole memrefs at named contents it runs to its end, leaves every input where it
    was, and leaves the output buffer and the two scratch buffers at the named contents (the equations say what they are
    in terms of what the body loaded). -/
theorem runC (c : Dev nD) (i : grid0.Coords)
    (arg2 : Memref sig .tc .vmem S8192x65 .f32) (harg2 : arg2.IsWhole) (arg3 : Memref sig .tc .vmem S256x8192 .f32) (harg3 : arg3.IsWhole)
    (arg4 : Memref sig .tc .vmem S65x65 .f32) (harg4 : arg4.IsWhole) (arg5 : Memref sig .tc .vmem S1x65 .f32) (harg5 : arg5.IsWhole)
    (arg6 : Memref sig .tc .vmem S65x65 .f32) (harg6 : arg6.IsWhole) (arg7 : Memref sig .tc .vmem S1x65 .f32) (harg7 : arg7.IsWhole)
    (arg8 : Memref sig .tc .vmem S256x65 .f32) (harg8 : arg8.IsWhole) (arg9 : Memref sig .tc .vmem S8192x65 .f32) (harg9 : arg9.IsWhole)
    (arg10 : Memref sig .tc .vmem S8192x65 .f32) (harg10 : arg10.IsWhole)
    (hc1 : ¬condA i) (hc2 : condC i) (hc3 : ¬cond3 i) (hc4 : cond4 i)
    (x0 : Vec F S8192x65 .f32) (x1 : Vec F S256x8192 .f32) (x2 : Vec F S65x65 .f32) (x3 : Vec F S1x65 .f32) (x4 : Vec F S65x65 .f32) (x5 : Vec F S1x65 .f32)
    (x6 : Vec F S256x65 .f32) (s0 : Vec F S8192x65 .f32) (s1 : Vec F S8192x65 .f32)
    (S0' : Vec F S8192x65 .f32) (O' : Vec F S256x65 .f32) (e0 : k0_pay2 s1 x4 = S0') (e6 : k0_pay5 x1 (k0_pay2 s1 x4) x5 = O')
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare s0 ∗ owns (c : Thread nD τ) arg10 fullShare s1
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
          ∗ owns (c : Thread nD τ) arg8 fullShare O' ∗ owns (c : Thread nD τ) arg9 fullShare S0' ∗ owns (c : Thread nD τ) arg10 fullShare s1) -∗ K ⟨⟩))
    ⊢ wp frame (wpE (defs₀ (F := F)) Variants.none c none) E (cc0__gcn2_body i arg2 harg2 arg3 harg3 arg4 harg4 arg5 harg5 arg6 harg6 arg7 harg7 arg8 harg8 arg9 harg9 arg10 harg10) K := by
  subst e0 e6
  have hz2 := hz2C
  simp only [cc0__gcn2_body_eq_skeleton]; unfold cc0__gcn2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc1 | exact hc2 | exact hc3 | exact hc4)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon, View.canon_unit_zero hz2]
    · simp only [View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]
    · intro y; refine ⟨_, List.mem_singleton_self _, ?_⟩
      dsimp only
      exact View.mem_set_unit_zero hz2 _ y
  isplitl [HS0]
  · iexists _; isplitr
    swap; · iexact HS0
    ipureintro
    rw [View.read_writes_eq_canon, View.canon_unit_zero hz2]
    · simp only [View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]
    · intro y; refine ⟨_, List.mem_singleton_self _, ?_⟩
      dsimp only
      exact View.mem_set_unit_zero hz2 _ y
  iexists _; isplitr; · ipureintro; exact harg10.read_unread _
  iexact HS1

end Cert.KernelIdeal.Gen

end
-- ==== Proof.KIRunD.lean ====
import proofs.«162940_g91027536872107_cont_sun_m_1130_33_alg».proof.Proof.Gen.KernelIdeal.Frame
import proofs.«162940_g91027536872107_cont_sun_m_1130_33_alg».proof.Proof.Gen.KernelIdeal.Skeleton
import Idealize.ShloMosaic.Lib.WritesUnit
import Idealize.ShloMosaic.Lib.Pipeline.Value
import proofs.«162940_g91027536872107_cont_sun_m_1130_33_alg».proof.Proof.KIConds
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2D : (![0, 0] : Fin 2 → ℕ) = fun _ => 0 := by funext a; fin_cases a <;> rfl

set_option maxHeartbeats 1000000 in
/-- The body at a point of case D: on whole memrefs at named contents it runs to its end, leaves every input where it
    was, and leaves the output buffer and the two scratch buffers at the named contents (the equations say what they are
    in terms of what the body loaded). -/
theorem runD (c : Dev nD) (i : grid0.Coords)
    (arg2 : Memref sig .tc .vmem S8192x65 .f32) (harg2 : arg2.IsWhole) (arg3 : Memref sig .tc .vmem S256x8192 .f32) (harg3 : arg3.IsWhole)
    (arg4 : Memref sig .tc .vmem S65x65 .f32) (harg4 : arg4.IsWhole) (arg5 : Memref sig .tc .vmem S1x65 .f32) (harg5 : arg5.IsWhole)
    (arg6 : Memref sig .tc .vmem S65x65 .f32) (harg6 : arg6.IsWhole) (arg7 : Memref sig .tc .vmem S1x65 .f32) (harg7 : arg7.IsWhole)
    (arg8 : Memref sig .tc .vmem S256x65 .f32) (harg8 : arg8.IsWhole) (arg9 : Memref sig .tc .vmem S8192x65 .f32) (harg9 : arg9.IsWhole)
    (arg10 : Memref sig .tc .vmem S8192x65 .f32) (harg10 : arg10.IsWhole)
    (hc1 : ¬condA i) (hc2 : ¬condC i) (hc3 : ¬cond3 i) (hc4 : cond4 i)
    (x0 : Vec F S8192x65 .f32) (x1 : Vec F S256x8192 .f32) (x2 : Vec F S65x65 .f32) (x3 : Vec F S1x65 .f32) (x4 : Vec F S65x65 .f32) (x5 : Vec F S1x65 .f32)
    (x6 : Vec F S256x65 .f32) (s0 : Vec F S8192x65 .f32) (s1 : Vec F S8192x65 .f32)
    (O' : Vec F S256x65 .f32) (e6 : k0_pay5 x1 s0 x5 = O')
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare s0 ∗ owns (c : Thread nD τ) arg10 fullShare s1
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
          ∗ owns (c : Thread nD τ) arg8 fullShare O' ∗ owns (c : Thread nD τ) arg9 fullShare s0 ∗ owns (c : Thread nD τ) arg10 fullShare s1) -∗ K ⟨⟩))
    ⊢ wp frame (wpE (defs₀ (F := F)) Variants.none c none) E (cc0__gcn2_body i arg2 harg2 arg3 harg3 arg4 harg4 arg5 harg5 arg6 harg6 arg7 harg7 arg8 harg8 arg9 harg9 arg10 harg10) K := by
  subst e6
  have hz2 := hz2D
  simp only [cc0__gcn2_body_eq_skeleton]; unfold cc0__gcn2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc1 | exact hc2 | exact hc3 | exact hc4)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon, View.canon_unit_zero hz2]
    · simp only [View.readAt_eq_ld, harg2.read_unread, harg3.read_unread, harg4.read_unread, harg5.read_unread, harg6.read_unread, harg7.read_unread, harg8.read_unread, harg9.read_unread, harg10.read_unread,
      View.ld_unit_zero (S := S8192x65) hz2, View.ld_unit_zero (S := S256x8192) hz2, View.ld_unit_zero (S := S65x65) hz2, View.ld_unit_zero (S := S1x65) hz2, View.ld_unit_zero (S := S256x65) hz2,
      View.readCov_unit_zero (S := S8192x65) _ hz2]
    · intro y; refine ⟨_, List.mem_singleton_self _, ?_⟩
      dsimp only
      exact View.mem_set_unit_zero hz2 _ y
  isplitl [HS0]
  · iexists _; isplitr; · ipureintro; exact harg9.read_unread _
    iexact HS0
  iexists _; isplitr; · ipureintro; exact harg10.read_unread _
  iexact HS1

end Cert.KernelIdeal.Gen

end
-- ==== Proof.KIData.lean ====
import proofs.«162940_g91027536872107_cont_sun_m_1130_33_alg».proof.Proof.Gen.KernelIdeal.Frame
import proofs.«162940_g91027536872107_cont_sun_m_1130_33_alg».proof.Proof.Gen.KernelIdeal.Skeleton
import Idealize.ShloMosaic.Lib.WritesUnit
import Idealize.ShloMosaic.Lib.Pipeline.Value
import proofs.«162940_g91027536872107_cont_sun_m_1130_33_alg».proof.Proof.KIRunA
import proofs.«162940_g91027536872107_cont_sun_m_1130_33_alg».proof.Proof.KIRunB
import proofs.«162940_g91027536872107_cont_sun_m_1130_33_alg».proof.Proof.KIRunC
import proofs.«162940_g91027536872107_cont_sun_m_1130_33_alg».proof.Proof.KIRunD
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch buffers and the output blocks hold, in terms of the input blocks

The grid's 64 points run the first pass (points 0–31) then the second (points 32–63). Point 0 forms the small product
X·W1 once; point t < 32 forms rows [256t, 256t + 256) of the hidden layer relu(A·(X·W1) + b1); point 32 forms the small
product H·W2 once; point t ≥ 32 forms rows [256(t−32), 256(t−32) + 256) of relu(A·(H·W2) + b2) in the output block. -/

theorem N64 : cfg0.N = 64 := N_0
abbrev t0 : Fin cfg0.N := ⟨0, lt_of_lt_of_eq (by omega : (0 : ℕ) < 64) N_0.symm⟩
abbrev t32 : Fin cfg0.N := ⟨32, lt_of_lt_of_eq (by omega : (32 : ℕ) < 64) N_0.symm⟩

/-- X·W1, as point 0 computes it. -/
def XW (c : Dev nD) : Vec F S8192x65 .f32 := k0_pay1 (iblk m c 0 t0) (iblk m c 2 t0)

/-- Row y₀ of the hidden layer, as point k computes it when y₀ lies in its 256 rows. -/
def Hrow (c : Dev nD) (k : ℕ) (hk : k < cfg0.N) (y : S8192x65.Idx)
    (h : 256 * k ≤ (y (0 : Fin 2)).val ∧ (y (0 : Fin 2)).val < 256 * k + 256) : F .f32 :=
  k0_pay4 (iblk m c 1 ⟨k, hk⟩) (XW m c) (iblk m c 3 ⟨k, hk⟩)
    (Rect.unitLocal (s := S8192x65) (off := ![256 * k, 0]) (size := S256x65.size) y (Rect.unit_rows_mem y rfl rfl h))

theorem Hrow_congr (c : Dev nD) {k k' : ℕ} (e : k = k') (hk : k < cfg0.N) (hk' : k' < cfg0.N) (y : S8192x65.Idx) (h) (h') :
    Hrow m c k hk y h = Hrow m c k' hk' y h' := by subst e; rfl

/-- The whole hidden layer: row y₀ is computed by point y₀ / 256. -/
def Hfull (c : Dev nD) : Vec F S8192x65 .f32 := fun y =>
  Hrow m c ((y (0 : Fin 2)).val / 256)
    (by have : (y (0 : Fin 2)).val < 8192 := (y (0 : Fin 2)).isLt
        rw [N64]; omega) y
    (by omega)

/-- The second scratch after the first n points of the first pass: the hidden layer on rows below 256·n, and whatever
    the buffer held (d) on the others. -/
def Hupto (c : Dev nD) (n : ℕ) (d : Vec F S8192x65 .f32) : Vec F S8192x65 .f32 := fun y =>
  if (y (0 : Fin 2)).val < 256 * n then Hfull m c y else d y

theorem Hupto_zero (c : Dev nD) (d : Vec F S8192x65 .f32) : Hupto m c 0 d = d := by
  funext y; unfold Hupto; rw [if_neg (by omega)]

theorem Hupto_full (c : Dev nD) (d : Vec F S8192x65 .f32) : Hupto m c 32 d = Hfull m c := by
  funext y; unfold Hupto
  have : (y (0 : Fin 2)).val < 8192 := (y (0 : Fin 2)).isLt
  rw [if_pos (by omega)]

/-- Point t of the first pass extends the rows filled by its own 256. -/
theorem slice_Hupto (c : Dev nD) (t : Fin cfg0.N) (ht : t.val < 32) (d s : Vec F S8192x65 .f32) (hs : s = Hupto m c t.val d) :
    slice (256 * t.val) s (k0_pay4 (iblk m c 1 t) (XW m c) (iblk m c 3 t)) = Hupto m c (t.val + 1) d := by
  subst hs
  funext y
  unfold slice Hupto
  by_cases h : 256 * t.val ≤ (y (0 : Fin 2)).val ∧ (y (0 : Fin 2)).val < 256 * t.val + 256
  · rw [dif_pos h, if_pos (by omega)]
    unfold Hfull
    exact Hrow_congr m c (by omega) t.isLt _ y h _
  · rw [dif_neg h]
    by_cases h2 : (y (0 : Fin 2)).val < 256 * t.val
    · rw [if_pos h2, if_pos (by omega)]
    · rw [if_neg h2, if_neg (by omega)]

/-- H·W2, as point 32 computes it. -/
def HW2 (c : Dev nD) : Vec F S8192x65 .f32 := k0_pay2 (Hfull m c) (iblk m c 4 t32)

/-- The output block of point t (meaningful in the second pass). -/
def Oblk (c : Dev nD) (t : Fin cfg0.N) : Vec F S256x65 .f32 := k0_pay5 (iblk m c 1 t) (HW2 m c) (iblk m c 5 t)

/-! ## The region invariant, point by point -/

/-- Before point n: at the start both scratch buffers hold anything; during the first pass the first holds X·W1 and
    the second the hidden layer on the rows filled so far; from point 33 on the first holds H·W2. -/
def PhiS (c : Dev nD) : (n : ℕ) → n ≤ cfg0.N → sProp 𝕄
  | 0, _ => Pipeline.ΦA spec0 c
  | n + 1, _ =>
    if n + 1 ≤ 32 then
      iprop(iprop(owns (c : Thread nD τ) scM0 fullShare (XW m c) ∗ (∃ d, owns (c : Thread nD τ) scM1 fullShare (Hupto m c (n + 1) d))) ∗ (∃ r, prngReg c r))
    else
      iprop(iprop(owns (c : Thread nD τ) scM0 fullShare (HW2 m c) ∗ (∃ d, owns (c : Thread nD τ) scM1 fullShare d)) ∗ (∃ r, prngReg c r))

theorem PhiS_zero (c : Dev nD) (n : ℕ) (h : n ≤ cfg0.N) (hz : n = 0) : PhiS m c n h = Pipeline.ΦA spec0 c := by
  subst hz; rfl

theorem PhiS_lo (c : Dev nD) (n : ℕ) (h : n ≤ cfg0.N) (hz : n ≠ 0) (hn : n ≤ 32) :
    PhiS m c n h = iprop(iprop(owns (c : Thread nD τ) scM0 fullShare (XW m c) ∗ (∃ d, owns (c : Thread nD τ) scM1 fullShare (Hupto m c n d))) ∗ (∃ r, prngReg c r)) := by
  cases n with
  | zero => exact absurd rfl hz
  | succ n => exact if_pos hn

theorem PhiS_hi (c : Dev nD) (n : ℕ) (h : n ≤ cfg0.N) (hn : 32 < n) :
    PhiS m c n h = iprop(iprop(owns (c : Thread nD τ) scM0 fullShare (HW2 m c) ∗ (∃ d, owns (c : Thread nD τ) scM1 fullShare d)) ∗ (∃ r, prngReg c r)) := by
  cases n with
  | zero => exact absurd hn (by omega)
  | succ n => exact if_neg (by omega)

/-! ## The pipeline's proof data -/

/-- After the body at point t each input's buffer holds its block and the output's holds `Oblk` (consulted only in the
    second pass: in the first the window is idle and not written back). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Oblk m c t
    | ⟨_ + 7, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = Oblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Gen

end
-- ==== Proof.KIBody.lean ====
import proofs.«162940_g91027536872107_cont_sun_m_1130_33_alg».proof.Proof.Gen.KernelIdeal.Frame
import proofs.«162940_g91027536872107_cont_sun_m_1130_33_alg».proof.Proof.Gen.KernelIdeal.Skeleton
import Idealize.ShloMosaic.Lib.WritesUnit
import Idealize.ShloMosaic.Lib.Pipeline.Value
import proofs.«162940_g91027536872107_cont_sun_m_1130_33_alg».proof.Proof.KIData
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The point's position decides its case: point 0 forms X·W1 and the first 256 rows of the hidden
    layer; a later point of the first pass forms its own 256 rows; point 32 finds the hidden layer complete, forms H·W2 and
    the first output block; a later point of the second pass forms its own output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl]
  rw [PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 64 := lt_of_lt_of_eq t.isLt N64
  by_cases hlo : t.val < 32
  · rw [Dat.leavesExact_idle (dats m 0 c) 6 t (idleAt0_6 t hlo) (noFlush0_6 t hlo)]
    rw [PhiS_lo m c (t.val + 1) _ (by omega) (by omega)]
    by_cases hz : t.val = 0
    · rw [PhiS_zero m c _ _ hz, PhiA0_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      have e0 : k0_pay1 (iblk m c 0 t) (iblk m c 2 t) = XW m c := by rw [show t = t0 from Fin.ext hz]; rfl
      have e1 : slice (256 * t.val) ds1 (k0_pay4 (iblk m c 1 t) (k0_pay1 (iblk m c 0 t) (iblk m c 2 t)) (iblk m c 3 t)) = Hupto m c (t.val + 1) ds1 := by
        rw [e0]; exact slice_Hupto m c t hlo ds1 ds1 (by rw [hz, Hupto_zero])
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
        ((hcondA t).mpr hz) (fun h => by have := (hcondC t).mp h; omega) ((hcond3 t).mpr hlo) (fun h => by have := (hcond4 t).mp h; omega)
        (256 * t.val) (hoff t hlo) (iblk m c 0 t) (iblk m c 1 t) (iblk m c 2 t) (iblk m c 3 t) (iblk m c 4 t) (iblk m c 5 t) ((dats m 0 c).before 6 t d6) ds0 ds1
        (XW m c) (Hupto m c (t.val + 1) ds1) e0 e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_lo m c t.val _ hz (by omega)]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
        (fun h => hz ((hcondA t).mp h)) (fun h => by have := (hcondC t).mp h; omega) ((hcond3 t).mpr hlo) (fun h => by have := (hcond4 t).mp h; omega)
        (256 * t.val) (hoff t hlo) (iblk m c 0 t) (iblk m c 1 t) (iblk m c 2 t) (iblk m c 3 t) (iblk m c 4 t) (iblk m c 5 t) ((dats m 0 c).before 6 t d6) (XW m c) (Hupto m c t.val ds1)
        (Hupto m c (t.val + 1) ds1) (slice_Hupto m c t hlo ds1 _ rfl) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hhi : 32 ≤ t.val := by omega
    rw [show (dats m 0 c).leavesExact 6 t = owns (c : Thread nD τ) (ms0_6 t) fullShare ((dats m 0 c).after 6 t) from by
      unfold Dat.leavesExact; rw [liveAt0_6 t hhi], after0_6]
    rw [PhiS_hi m c (t.val + 1) _ (by omega)]
    by_cases hz : t.val = 32
    · rw [PhiS_lo m c t.val _ (by omega) (by omega)]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      have hs1 : Hupto m c t.val ds1 = Hfull m c := by rw [hz]; exact Hupto_full m c ds1
      have e0 : k0_pay2 (Hupto m c t.val ds1) (iblk m c 4 t) = HW2 m c := by
        rw [hs1, show t = t32 from Fin.ext hz]; rfl
      have e6 : k0_pay5 (iblk m c 1 t) (k0_pay2 (Hupto m c t.val ds1) (iblk m c 4 t)) (iblk m c 5 t) = Oblk m c t := by
        rw [e0]; rfl
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
        (fun h => by have := (hcondA t).mp h; omega) ((hcondC t).mpr hz) (fun h => by have := (hcond3 t).mp h; omega) ((hcond4 t).mpr hhi)
        (iblk m c 0 t) (iblk m c 1 t) (iblk m c 2 t) (iblk m c 3 t) (iblk m c 4 t) (iblk m c 5 t) ((dats m 0 c).before 6 t d6) (XW m c) (Hupto m c t.val ds1)
        (HW2 m c) (Oblk m c t) e0 e6 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_hi m c t.val _ (by omega)]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
        (fun h => by have := (hcondA t).mp h; omega) (fun h => hz ((hcondC t).mp h)) (fun h => by have := (hcond3 t).mp h; omega) ((hcond4 t).mpr hhi)
        (iblk m c 0 t) (iblk m c 1 t) (iblk m c 2 t) (iblk m c 3 t) (iblk m c 4 t) (iblk m c 5 t) ((dats m 0 c).before 6 t d6) (HW2 m c) ds1
        (Oblk m c t) rfl Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_hi m c _ _ (by rw [Fin.val_last, N64]; omega), PhiA0_eq]
  iintro ⟨⟨HS0, ⟨%d, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and in every final state each array of the pipeline holds what the
    write-backs of the proof data leave in it, every other unscoped buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.KIPay.lean ====
import proofs.«162940_g91027536872107_cont_sun_m_1130_33_alg».proof.Proof.Gen.KernelIdeal.Skeleton
import proofs.«162940_g91027536872107_cont_sun_m_1130_33_alg».proof.Proof.LibDotRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

/-! # The body's arithmetic at an index, over the extended reals

Each matrix product of the body is the textbook sum over the contracted index; the bias row is added to every row; the
rectifier is the maximum with zero. -/

namespace Cert.KernelIdeal.PayValue

open Idealize.ShloMosaic Idealize.ShloMosaic.ValueIdx Cert.KernelIdeal Cert.KernelIdeal.Gen

/-! ## The two products' dimension numbers: which coordinate of each operand an output index and a contraction index name -/

theorem dS_lhs0 (i : S8192x65.Idx) (q : dot_S8192x65_S65x65_S8192x65_1_0_0_1_n_n.contr.Idx) : (dot_S8192x65_S65x65_S8192x65_1_0_0_1_n_n.lhsIdx i q 0).val = (i 0).val := by
  unfold DotDims.lhsIdx
  rw [dif_neg (show ¬(0 : Fin S8192x65.rank) ∈ dot_S8192x65_S65x65_S8192x65_1_0_0_1_n_n.lhsBatch by decide), dif_pos (show (0 : Fin S8192x65.rank) ∈ dot_S8192x65_S65x65_S8192x65_1_0_0_1_n_n.lhsNonContracting by decide)]
  rfl
theorem dS_lhs1 (i : S8192x65.Idx) (q : dot_S8192x65_S65x65_S8192x65_1_0_0_1_n_n.contr.Idx) : (dot_S8192x65_S65x65_S8192x65_1_0_0_1_n_n.lhsIdx i q 1).val = (q ⟨0, by decide⟩).val :=
  dot_S8192x65_S65x65_S8192x65_1_0_0_1_n_n.lhsIdx_val_of_single rfl i q
theorem dS_rhs0 (i : S8192x65.Idx) (q : dot_S8192x65_S65x65_S8192x65_1_0_0_1_n_n.contr.Idx) : (dot_S8192x65_S65x65_S8192x65_1_0_0_1_n_n.rhsIdx i q 0).val = (q ⟨0, by decide⟩).val :=
  dot_S8192x65_S65x65_S8192x65_1_0_0_1_n_n.rhsIdx_val_of_single rfl i q
theorem dS_rhs1 (i : S8192x65.Idx) (q : dot_S8192x65_S65x65_S8192x65_1_0_0_1_n_n.contr.Idx) : (dot_S8192x65_S65x65_S8192x65_1_0_0_1_n_n.rhsIdx i q 1).val = (i 1).val := by
  unfold DotDims.rhsIdx
  rw [dif_neg (show ¬(1 : Fin S65x65.rank) ∈ dot_S8192x65_S65x65_S8192x65_1_0_0_1_n_n.rhsBatch by decide), dif_pos (show (1 : Fin S65x65.rank) ∈ dot_S8192x65_S65x65_S8192x65_1_0_0_1_n_n.rhsNonContracting by decide)]
  rfl

theorem dB_lhs0 (i : S256x65.Idx) (q : dot_S256x8192_S8192x65_S256x65_1_0_0_1_n_n.contr.Idx) : (dot_S256x8192_S8192x65_S256x65_1_0_0_1_n_n.lhsIdx i q 0).val = (i 0).val := by
  unfold DotDims.lhsIdx
  rw [dif_neg (show ¬(0 : Fin S256x8192.rank) ∈ dot_S256x8192_S8192x65_S256x65_1_0_0_1_n_n.lhsBatch by decide), dif_pos (show (0 : Fin S256x8192.rank) ∈ dot_S256x8192_S8192x65_S256x65_1_0_0_1_n_n.lhsNonContracting by decide)]
  rfl
theorem dB_lhs1 (i : S256x65.Idx) (q : dot_S256x8192_S8192x65_S256x65_1_0_0_1_n_n.contr.Idx) : (dot_S256x8192_S8192x65_S256x65_1_0_0_1_n_n.lhsIdx i q 1).val = (q ⟨0, by decide⟩).val :=
  dot_S256x8192_S8192x65_S256x65_1_0_0_1_n_n.lhsIdx_val_of_single rfl i q
theorem dB_rhs0 (i : S256x65.Idx) (q : dot_S256x8192_S8192x65_S256x65_1_0_0_1_n_n.contr.Idx) : (dot_S256x8192_S8192x65_S256x65_1_0_0_1_n_n.rhsIdx i q 0).val = (q ⟨0, by decide⟩).val :=
  dot_S256x8192_S8192x65_S256x65_1_0_0_1_n_n.rhsIdx_val_of_single rfl i q
theorem dB_rhs1 (i : S256x65.Idx) (q : dot_S256x8192_S8192x65_S256x65_1_0_0_1_n_n.contr.Idx) : (dot_S256x8192_S8192x65_S256x65_1_0_0_1_n_n.rhsIdx i q 1).val = (i 1).val := by
  unfold DotDims.rhsIdx
  rw [dif_neg (show ¬(1 : Fin S8192x65.rank) ∈ dot_S256x8192_S8192x65_S256x65_1_0_0_1_n_n.rhsBatch by decide), dif_pos (show (1 : Fin S8192x65.rank) ∈ dot_S256x8192_S8192x65_S256x65_1_0_0_1_n_n.rhsNonContracting by decide)]
  rfl

/-- The small product [8192, 65] · [65, 65] at (r, c): the sum over k of a(r, k) · b(k, c). -/
theorem pay1_apply (a : Vec Ideal S8192x65 .f32) (b : Vec Ideal S65x65 .f32) (r : Fin 8192) (cc : Fin 65) :
    k0_pay1 (F := Ideal) a b (ix2 r cc) = ∑ k : Fin 65, a (ix2 r k) * b (ix2 k cc) := by
  unfold k0_pay1
  try dsimp only
  rw [shapeCast_self]
  exact matmul_zero_rows dot_S8192x65_S65x65_S8192x65_1_0_0_1_n_n none rfl rfl dS_lhs0 dS_lhs1 dS_rhs0 dS_rhs1 a b r cc

/-- The second small product is the same function of its operands. -/
theorem pay2_eq (a : Vec Ideal S8192x65 .f32) (b : Vec Ideal S65x65 .f32) : k0_pay2 (F := Ideal) a b = k0_pay1 (F := Ideal) a b := rfl

/-- A block of 256 rows of a layer at (r, c): max(∑ₗ a(r, l) · s(l, c) + bias(c), 0). -/
theorem pay4_apply (ablk : Vec Ideal S256x8192 .f32) (s : Vec Ideal S8192x65 .f32) (brow : Vec Ideal S1x65 .f32) (r : Fin 256) (cc : Fin 65) :
    k0_pay4 (F := Ideal) ablk s brow (ix2 r cc)
      = max ((∑ l : Fin 8192, ablk (ix2 r l) * s (ix2 l cc)) + brow (ix2 (0 : Fin 1) cc)) (Ideal.ofBits .f32 0x00000000#32) := by
  unfold k0_pay4 k0_pay3
  try dsimp only
  rw [shapeCast_self, maximumf_apply, addf_apply, broadcast_apply, shapeCast_self, broadcastTo_1b_ab_apply]
  refine congrArg₂ max (congrArg (· + brow (ix2 (0 : Fin 1) cc)) ?_) rfl
  exact matmul_zero_rows dot_S256x8192_S8192x65_S256x65_1_0_0_1_n_n none rfl rfl dB_lhs0 dB_lhs1 dB_rhs0 dB_rhs1 ablk s r cc

/-- The output block is the same function of its operands. -/
theorem pay5_apply (ablk : Vec Ideal S256x8192 .f32) (s : Vec Ideal S8192x65 .f32) (brow : Vec Ideal S1x65 .f32) (r : Fin 256) (cc : Fin 65) :
    k0_pay5 (F := Ideal) ablk s brow (ix2 r cc)
      = max ((∑ l : Fin 8192, ablk (ix2 r l) * s (ix2 l cc)) + brow (ix2 (0 : Fin 1) cc)) (Ideal.ofBits .f32 0x00000000#32) := by
  unfold k0_pay5 k0_pay3
  try dsimp only
  rw [maximumf_apply, addf_apply, broadcast_apply, shapeCast_self, broadcastTo_1b_ab_apply]
  refine congrArg₂ max (congrArg (· + brow (ix2 (0 : Fin 1) cc)) ?_) rfl
  exact matmul_zero_rows dot_S256x8192_S8192x65_S256x65_1_0_0_1_n_n none rfl rfl dB_lhs0 dB_lhs1 dB_rhs0 dB_rhs1 ablk s r cc

end Cert.KernelIdeal.PayValue

end
-- ==== Proof.RefAt.lean ====
import proofs.«162940_g91027536872107_cont_sun_m_1130_33_alg».proof.Proof.Gen.ReferenceIdeal.Read
import Idealize.ShloMosaic.Lib.ValueIdx

noncomputable section

open scoped BigOperators

/-! # The reference's stages at coordinates, over the extended reals

out = relu(A · (relu(A · (X · W1) + b1) · W2) + b2): each product the sum over the contracted index, each bias added to
every row, each rectifier the maximum with zero. -/

namespace Cert.ReferenceIdeal.RefValue

open Cert.ReferenceIdeal Cert.ReferenceIdeal.Read Idealize.ShloMosaic Idealize.ShloMosaic.ValueIdx

theorem l0 (r : Fin 8192) (cc : Fin 65) (k : Fin 65) : lidx_main_v0 (ix2 r cc) k = ix2 r k := funext fun a => Fin.ext (by match a with | ⟨0, _⟩ => rfl | ⟨1, _⟩ => rfl)
theorem r0 (r : Fin 8192) (cc : Fin 65) (k : Fin 65) : ridx_main_v0 (ix2 r cc) k = ix2 k cc := funext fun a => Fin.ext (by match a with | ⟨0, _⟩ => rfl | ⟨1, _⟩ => rfl)
theorem l1 (r : Fin 8192) (cc : Fin 65) (k : Fin 8192) : lidx_main_v1 (ix2 r cc) k = ix2 r k := funext fun a => Fin.ext (by match a with | ⟨0, _⟩ => rfl | ⟨1, _⟩ => rfl)
theorem r1 (r : Fin 8192) (cc : Fin 65) (k : Fin 8192) : ridx_main_v1 (ix2 r cc) k = ix2 k cc := funext fun a => Fin.ext (by match a with | ⟨0, _⟩ => rfl | ⟨1, _⟩ => rfl)
theorem l7 (r : Fin 8192) (cc : Fin 65) (k : Fin 65) : lidx_main_v7 (ix2 r cc) k = ix2 r k := funext fun a => Fin.ext (by match a with | ⟨0, _⟩ => rfl | ⟨1, _⟩ => rfl)
theorem r7 (r : Fin 8192) (cc : Fin 65) (k : Fin 65) : ridx_main_v7 (ix2 r cc) k = ix2 k cc := funext fun a => Fin.ext (by match a with | ⟨0, _⟩ => rfl | ⟨1, _⟩ => rfl)
theorem l8 (r : Fin 8192) (cc : Fin 65) (k : Fin 8192) : lidx_main_v8 (ix2 r cc) k = ix2 r k := funext fun a => Fin.ext (by match a with | ⟨0, _⟩ => rfl | ⟨1, _⟩ => rfl)
theorem r8 (r : Fin 8192) (cc : Fin 65) (k : Fin 8192) : ridx_main_v8 (ix2 r cc) k = ix2 k cc := funext fun a => Fin.ext (by match a with | ⟨0, _⟩ => rfl | ⟨1, _⟩ => rfl)
theorem b3 (r : Fin 8192) (cc : Fin 65) : idx_main_v2 (idx_main_v3 (ix2 r cc)) = ix1 cc :=
  funext fun a => Fin.ext (by match a with | ⟨0, _⟩ => rfl)
theorem b10 (r : Fin 8192) (cc : Fin 65) : idx_main_v9 (idx_main_v10 (ix2 r cc)) = ix1 cc :=
  funext fun a => Fin.ext (by match a with | ⟨0, _⟩ => rfl)

variable (x0 : (⟨S8192x65, .f32⟩ : BufTy).Contents (Elt Ideal)) (x1 : (⟨S8192x8192, .f32⟩ : BufTy).Contents (Elt Ideal))
  (x2 : (⟨S65x65, .f32⟩ : BufTy).Contents (Elt Ideal)) (x3 : (⟨S65, .f32⟩ : BufTy).Contents (Elt Ideal))
  (x4 : (⟨S65x65, .f32⟩ : BufTy).Contents (Elt Ideal)) (x5 : (⟨S65, .f32⟩ : BufTy).Contents (Elt Ideal))

/-- X · W1 at (r, c). -/
theorem v0_at (r : Fin 8192) (cc : Fin 65) :
    val_main_v0 (F := Ideal) x0 x2 (ix2 r cc) = ∑ k : Fin 65, x0 (ix2 r k) * x2 (ix2 k cc) := by
  rw [val_main_v0_apply]; simp only [l0, r0]

/-- The hidden layer at (r, c). -/
theorem v6_at (r : Fin 8192) (cc : Fin 65) :
    val_main_v6 (F := Ideal) x0 x1 x2 x3 (ix2 r cc)
      = max ((∑ l : Fin 8192, x1 (ix2 r l) * val_main_v0 (F := Ideal) x0 x2 (ix2 l cc)) + x3 (ix1 cc)) (Ideal.ofBits .f32 0x00000000#32) := by
  rw [val_main_v6_apply, val_main_v4_apply, val_main_v1_apply, val_main_v3_apply, val_main_v2_apply, val_main_v5_apply, val_main_cst_apply]
  simp only [l1, r1, b3]
  rfl

/-- H · W2 at (r, c). -/
theorem v7_at (r : Fin 8192) (cc : Fin 65) :
    val_main_v7 (F := Ideal) x0 x1 x2 x3 x4 (ix2 r cc) = ∑ k : Fin 65, val_main_v6 (F := Ideal) x0 x1 x2 x3 (ix2 r k) * x4 (ix2 k cc) := by
  rw [val_main_v7_apply]; simp only [l7, r7]

/-- The result at (r, c). -/
theorem v13_at (r : Fin 8192) (cc : Fin 65) :
    val_main_v13 (F := Ideal) x0 x1 x2 x3 x4 x5 (ix2 r cc)
      = max ((∑ l : Fin 8192, x1 (ix2 r l) * val_main_v7 (F := Ideal) x0 x1 x2 x3 x4 (ix2 l cc)) + x5 (ix1 cc)) (Ideal.ofBits .f32 0x00000000#32) := by
  rw [val_main_v13_apply, val_main_v11_apply, val_main_v8_apply, val_main_v10_apply, val_main_v9_apply, val_main_v12_apply, val_main_cst_0_apply]
  simp only [l8, r8, b10]
  rfl

end Cert.ReferenceIdeal.RefValue

end
-- ==== Proof.KIValue.lean ====
import proofs.«162940_g91027536872107_cont_sun_m_1130_33_alg».proof.Proof.KIBody
import proofs.«162940_g91027536872107_cont_sun_m_1130_33_alg».proof.Proof.KIPay
import proofs.«162940_g91027536872107_cont_sun_m_1130_33_alg».proof.Proof.RefAt
import Idealize.ShloMosaic.Lib.StableHlo.Run
import Idealize.ShloMosaic.Lib.ValueLayout
import Idealize.ShloMosaic.Lib.ValueIdx

set_option maxRecDepth 16384

noncomputable section

open scoped BigOperators

/-! # What the kernel's result array holds, over the extended reals

The two scratch buffers hold X·W1 (then H·W2) and the hidden layer H = relu(A·(X·W1) + b1); the output block of point
t ≥ 32 is rows [256(t − 32), 256(t − 32) + 256) of relu(A·(H·W2) + b2). These are, stage by stage, the reference's own
stages: the same sums in the same grouping, so no law of the extended reals is needed beyond reading each operation
at an index. -/

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.PayValue Cert.ReferenceIdeal.RefValue
open Idealize.ShloMosaic.Pipeline (Dat)

variable (m : (ℓ : Loc nD τ sig) → Buf (Elt Ideal) ℓ) (ρ : Dev nD → PrngReg)

/-! ## The printed index maps over the grid, and each window's block read at coordinates -/

theorem idx_facts : ∀ t : Fin cfg0.N,
    win0_0.index t (0 : Fin 2) = 0 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (t.val / 32) * (t.val % 32) ∧ win0_6.index t (1 : Fin 2) = 0 :=
  (by decide +kernel : ∀ t : Fin grid0.N, _)

/-- Window 0's block is its whole array at every point. -/
theorem blk0_at (c : Dev nD) (t : Fin cfg0.N) (r : Fin 8192) (k : Fin 65) : iblk m c 0 t (ix2 r k) = V m c main_arg0 (ix2 r k) := by
  obtain ⟨e00, e01, e10, e11, e20, e21, e30, e31, e40, e41, e50, e51, e60, e61⟩ := idx_facts t
  show V m c main_arg0 (((cfg0.win 0).blk t).view.emb (ix2 r k)) = _
  refine congrArg _ (funext fun a => Fin.ext ?_)
  match a with
  | ⟨0, _⟩ => show win0_0.index t (0 : Fin 2) * 8192 + 1 * r.val = r.val; omega
  | ⟨1, _⟩ => show win0_0.index t (1 : Fin 2) * 65 + 1 * k.val = k.val; omega

/-- Window 2's block is its whole array at every point. -/
theorem blk2_at (c : Dev nD) (t : Fin cfg0.N) (r : Fin 65) (k : Fin 65) : iblk m c 2 t (ix2 r k) = V m c main_arg2 (ix2 r k) := by
  obtain ⟨e00, e01, e10, e11, e20, e21, e30, e31, e40, e41, e50, e51, e60, e61⟩ := idx_facts t
  show V m c main_arg2 (((cfg0.win 2).blk t).view.emb (ix2 r k)) = _
  refine congrArg _ (funext fun a => Fin.ext ?_)
  match a with
  | ⟨0, _⟩ => show win0_2.index t (0 : Fin 2) * 65 + 1 * r.val = r.val; omega
  | ⟨1, _⟩ => show win0_2.index t (1 : Fin 2) * 65 + 1 * k.val = k.val; omega

/-- Window 3's block is its whole array at every point. -/
theorem blk3_at (c : Dev nD) (t : Fin cfg0.N) (r : Fin 1) (k : Fin 65) : iblk m c 3 t (ix2 r k) = V m c main_v0 (ix2 r k) := by
  obtain ⟨e00, e01, e10, e11, e20, e21, e30, e31, e40, e41, e50, e51, e60, e61⟩ := idx_facts t
  show V m c main_v0 (((cfg0.win 3).blk t).view.emb (ix2 r k)) = _
  refine congrArg _ (funext fun a => Fin.ext ?_)
  match a with
  | ⟨0, _⟩ => show win0_3.index t (0 : Fin 2) * 1 + 1 * r.val = r.val; omega
  | ⟨1, _⟩ => show win0_3.index t (1 : Fin 2) * 65 + 1 * k.val = k.val; omega

/-- Window 4's block is its whole array at every point. -/
theorem blk4_at (c : Dev nD) (t : Fin cfg0.N) (r : Fin 65) (k : Fin 65) : iblk m c 4 t (ix2 r k) = V m c main_arg4 (ix2 r k) := by
  obtain ⟨e00, e01, e10, e11, e20, e21, e30, e31, e40, e41, e50, e51, e60, e61⟩ := idx_facts t
  show V m c main_arg4 (((cfg0.win 4).blk t).view.emb (ix2 r k)) = _
  refine congrArg _ (funext fun a => Fin.ext ?_)
  match a with
  | ⟨0, _⟩ => show win0_4.index t (0 : Fin 2) * 65 + 1 * r.val = r.val; omega
  | ⟨1, _⟩ => show win0_4.index t (1 : Fin 2) * 65 + 1 * k.val = k.val; omega

/-- Window 5's block is its whole array at every point. -/
theorem blk5_at (c : Dev nD) (t : Fin cfg0.N) (r : Fin 1) (k : Fin 65) : iblk m c 5 t (ix2 r k) = V m c main_v1 (ix2 r k) := by
  obtain ⟨e00, e01, e10, e11, e20, e21, e30, e31, e40, e41, e50, e51, e60, e61⟩ := idx_facts t
  show V m c main_v1 (((cfg0.win 5).blk t).view.emb (ix2 r k)) = _
  refine congrArg _ (funext fun a => Fin.ext ?_)
  match a with
  | ⟨0, _⟩ => show win0_5.index t (0 : Fin 2) * 1 + 1 * r.val = r.val; omega
  | ⟨1, _⟩ => show win0_5.index t (1 : Fin 2) * 65 + 1 * k.val = k.val; omega

/-- Window 1's block at point t is rows [256·(t % 32), 256·(t % 32) + 256) of A. -/
theorem blk1_at (c : Dev nD) (t : Fin cfg0.N) (r : Fin 256) (l : Fin 8192) (R : Fin 8192) (hR : R.val = 256 * (t.val % 32) + r.val) :
    iblk m c 1 t (ix2 r l) = V m c main_arg1 (ix2 R l) := by
  obtain ⟨e00, e01, e10, e11, e20, e21, e30, e31, e40, e41, e50, e51, e60, e61⟩ := idx_facts t
  show V m c main_arg1 (((cfg0.win 1).blk t).view.emb (ix2 r l)) = _
  refine congrArg _ (funext fun a => Fin.ext ?_)
  match a with
  | ⟨0, _⟩ => show win0_1.index t (0 : Fin 2) * 256 + 1 * r.val = R.val; omega
  | ⟨1, _⟩ => show win0_1.index t (1 : Fin 2) * 8192 + 1 * l.val = l.val; omega

/-- The two bias rows are the bias vectors laid out as one row by the host before the region. -/
theorem V_v0_at (c : Dev nD) (cc : Fin 65) : V m c main_v0 (ix2 (0 : Fin 1) cc) = (m ((c.tc : Thread nD τ).loc main_arg3)) (ix1 cc) := by
  have e : (V m c main_v0 : S1x65.Idx → EReal) = shapeCast S1x65 (m ((c.tc : Thread nD τ).loc main_arg3)) shapeCasts_S65_S1x65 := by
    dsimp only [V, hostOps0]; after_results; rfl
  exact (congrFun e _).trans (shapeCast_a_1a_apply _ _ 0 cc)
theorem V_v1_at (c : Dev nD) (cc : Fin 65) : V m c main_v1 (ix2 (0 : Fin 1) cc) = (m ((c.tc : Thread nD τ).loc main_arg5)) (ix1 cc) := by
  have e : (V m c main_v1 : S1x65.Idx → EReal) = shapeCast S1x65 (m ((c.tc : Thread nD τ).loc main_arg5)) shapeCasts_S65_S1x65 := by
    dsimp only [V, hostOps0]; after_results; rfl
  exact (congrFun e _).trans (shapeCast_a_1a_apply _ _ 0 cc)

/-! ## The scratch contents are the reference's stages -/

/-- The first scratch in the first pass is the reference's X·W1. -/
theorem XW_eq (c : Dev nD) : XW m c = Cert.ReferenceIdeal.Read.val_main_v0 (F := Ideal) (m ((c.tc : Thread nD τ).loc main_arg0)) (m ((c.tc : Thread nD τ).loc main_arg2)) := by
  funext j
  obtain ⟨r, cc, rfl⟩ : ∃ (r : Fin 8192) (cc : Fin 65), j = ix2 r cc := ⟨j 0, j 1, eq_ix2 j⟩
  unfold XW
  rw [pay1_apply (iblk m c 0 t0) (iblk m c 2 t0) r cc, v0_at]
  refine Finset.sum_congr rfl fun k _ => ?_
  rw [blk0_at m c t0 r k, blk2_at m c t0 k cc, V_main_arg0, V_main_arg2]

/-- A row of the hidden layer, as the point that holds it computes it, is the reference's. -/
theorem Hrow_eq (c : Dev nD) (k : ℕ) (hk : k < cfg0.N) (r : Fin 8192) (cc : Fin 65)
    (h : 256 * k ≤ r.val ∧ r.val < 256 * k + 256) :
    Hrow m c k hk (ix2 r cc) h = Cert.ReferenceIdeal.Read.val_main_v6 (F := Ideal) (m ((c.tc : Thread nD τ).loc main_arg0)) (m ((c.tc : Thread nD τ).loc main_arg1)) (m ((c.tc : Thread nD τ).loc main_arg2)) (m ((c.tc : Thread nD τ).loc main_arg3)) (ix2 r cc) := by
  have hr : r.val < 8192 := r.isLt
  have hloc : Rect.unitLocal (s := S8192x65) (off := ![256 * k, 0]) (size := S256x65.size) (ix2 r cc) (Rect.unit_rows_mem (ix2 r cc) rfl rfl h)
      = ix2 (⟨r.val - 256 * k, by omega⟩ : Fin 256) cc :=
    funext fun a => Fin.ext (by
      match a with
      | ⟨0, _⟩ => rfl
      | ⟨1, _⟩ => exact Nat.sub_zero _)
  unfold Hrow
  rw [hloc, pay4_apply (iblk m c 1 ⟨k, hk⟩) (XW m c) (iblk m c 3 ⟨k, hk⟩) ⟨r.val - 256 * k, by omega⟩ cc, v6_at]
  refine congrArg₂ max (congrArg₂ (· + ·) (Finset.sum_congr rfl fun l _ => ?_) ?_) rfl
  · rw [blk1_at m c ⟨k, hk⟩ ⟨r.val - 256 * k, by omega⟩ l r (by show r.val = 256 * (k % 32) + (r.val - 256 * k); omega), XW_eq, V_main_arg1]
  · rw [blk3_at m c ⟨k, hk⟩ 0 cc, V_v0_at]

/-- The second scratch, once filled, is the reference's hidden layer. -/
theorem Hfull_eq (c : Dev nD) : Hfull m c = Cert.ReferenceIdeal.Read.val_main_v6 (F := Ideal) (m ((c.tc : Thread nD τ).loc main_arg0)) (m ((c.tc : Thread nD τ).loc main_arg1)) (m ((c.tc : Thread nD τ).loc main_arg2)) (m ((c.tc : Thread nD τ).loc main_arg3)) := by
  funext j
  obtain ⟨r, cc, rfl⟩ : ∃ (r : Fin 8192) (cc : Fin 65), j = ix2 r cc := ⟨j 0, j 1, eq_ix2 j⟩
  exact Hrow_eq m c _ _ r cc _

/-- The first scratch in the second pass is the reference's H·W2. -/
theorem HW2_eq (c : Dev nD) : HW2 m c = Cert.ReferenceIdeal.Read.val_main_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext j
  obtain ⟨r, cc, rfl⟩ : ∃ (r : Fin 8192) (cc : Fin 65), j = ix2 r cc := ⟨j 0, j 1, eq_ix2 j⟩
  unfold HW2
  rw [pay2_eq, pay1_apply (Hfull m c) (iblk m c 4 t32) r cc, v7_at]
  refine Finset.sum_congr rfl fun k _ => ?_
  rw [Hfull_eq, blk4_at m c t32 k cc, V_main_arg4]

/-- The function the result array ends holding: the reference's last stage of the argument arrays. -/
abbrev G (c : Dev nD) : S8192x65.Idx → EReal :=
  Cert.ReferenceIdeal.Read.val_main_v13 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The output block of a point of the second pass, at (r, c), is the reference's result at the row the block holds. -/
theorem Oblk_at (c : Dev nD) (t : Fin cfg0.N) (r : Fin 256) (cc : Fin 65) (R : Fin 8192) (hR : R.val = 256 * (t.val % 32) + r.val) :
    Oblk m c t (ix2 r cc) = G m c (ix2 R cc) := by
  unfold Oblk G
  rw [pay5_apply (iblk m c 1 t) (HW2 m c) (iblk m c 5 t) r cc, v13_at]
  refine congrArg₂ max (congrArg₂ (· + ·) (Finset.sum_congr rfl fun l _ => ?_) ?_) rfl
  · rw [blk1_at m c t r l R hR, HW2_eq, V_main_arg1]
  · rw [blk5_at m c t 0 cc, V_v1_at]

/-! ## From blocks to the array -/

/-- What a point of the second pass writes back is its block of `G`. -/
theorem flushed_eq (c : Dev nD) (t : Fin cfg0.N) (ht : 32 ≤ t.val) :
    (dats m 0 c).flushed 6 t = ((cfg0.win 6).blk t).view.read (Elt Ideal) (G m c) := by
  show (cfg0.win 6).cut (grid0.coords t) ((dats m 0 c).after 6 t) = _
  rw [after0_6]
  funext j
  obtain ⟨r, cc, rfl⟩ : ∃ (r : Fin 256) (cc : Fin 65), j = ix2 r cc := ⟨j 0, j 1, eq_ix2 j⟩
  have hN : t.val < 64 := lt_of_lt_of_eq t.isLt N64
  have hr : r.val < 256 := r.isLt
  obtain ⟨e00, e01, e10, e11, e20, e21, e30, e31, e40, e41, e50, e51, e60, e61⟩ := idx_facts t
  have hq : t.val / 32 = 1 := by omega
  have hemb : ((cfg0.win 6).blk t).view.emb (ix2 r cc) = ix2 (⟨256 * (t.val % 32) + r.val, by omega⟩ : Fin 8192) cc :=
    funext fun a => Fin.ext (by
      match a with
      | ⟨0, _⟩ => show win0_6.index t (0 : Fin 2) * 256 + 1 * r.val = 256 * (t.val % 32) + r.val; rw [e60, hq]; omega
      | ⟨1, _⟩ => show win0_6.index t (1 : Fin 2) * 65 + 1 * cc.val = cc.val; omega)
  show Oblk m c t (ix2 r cc) = G m c (((cfg0.win 6).blk t).view.emb (ix2 r cc))
  rw [hemb]
  exact Oblk_at m c t r cc _ rfl

theorem mem_blk6 (t : Fin cfg0.N) (i : S8192x65.Idx) :
    i ∈ ((cfg0.win 6).blk t).view.set ↔ ∀ a : Fin 2, win0_6.index t a * S256x65.size a ≤ (i a).val ∧ (i a).val < win0_6.index t a * S256x65.size a + S256x65.size a := by
  show i ∈ ((View.whole main_v2).slice (win0_6.rect t)).set ↔ _
  rw [View.set_slice_whole, Rect.mem_set_unit]
  exact Iff.rfl

/-- Row r of the result is written back by point 32 + r / 256. -/
theorem cover6 (i : S8192x65.Idx) : ∃ t : Fin cfg0.N, (cfg0.win 6).flush t = true ∧ i ∈ ((cfg0.win 6).blk t).view.set := by
  have hi0 : (i 0).val < 8192 := (i 0).isLt
  have hi1 : (i 1).val < 65 := (i 1).isLt
  have hlt : 32 + (i 0).val / 256 < cfg0.N := by rw [N64]; omega
  refine ⟨⟨32 + (i 0).val / 256, hlt⟩, (flush0_6 _).mpr (Nat.le_add_right _ _), ?_⟩
  rw [mem_blk6]
  obtain ⟨e00, e01, e10, e11, e20, e21, e30, e31, e40, e41, e50, e51, e60, e61⟩ := idx_facts ⟨32 + (i 0).val / 256, hlt⟩
  have hq : (32 + (i 0).val / 256) / 32 = 1 := by omega
  intro a
  match a with
  | ⟨0, _⟩ =>
    show win0_6.index _ (0 : Fin 2) * 256 ≤ (i 0).val ∧ (i 0).val < win0_6.index _ (0 : Fin 2) * 256 + 256
    rw [e60]; show ((32 + (i 0).val / 256) / 32) * ((32 + (i 0).val / 256) % 32) * 256 ≤ _ ∧ _ < ((32 + (i 0).val / 256) / 32) * ((32 + (i 0).val / 256) % 32) * 256 + 256
    rw [hq]; omega
  | ⟨1, _⟩ =>
    show win0_6.index _ (1 : Fin 2) * 65 ≤ (i 1).val ∧ (i 1).val < win0_6.index _ (1 : Fin 2) * 65 + 65
    rw [e61]; omega

/-- The result array after the run is `G` of the argument arrays. -/
theorem final6 (c : Dev nD) : (dats m 0 c).arrAt 6 cfg0.N = G m c :=
  (dats m 0 c).arrAt_eq_of_cover 6 (G m c) (fun t hf => flushed_eq m c t ((flush0_6 t).mp hf)) (cover6)

/-- The run, read: the result array ends at `G`, the argument arrays unchanged. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Val

end
-- ==== Proof.lean ====
/-
  Two stacked dense graph-convolution layers, out = relu(A · (relu(A · (X · W1) + b1) · W2) + b2), with A of size
  8192 × 8192 and feature width 65, computed by ONE kernel over a 2 × 32 grid against the plain jnp reference.

  The kernel keeps two 8192 × 65 scratch arrays across its 64 grid points. In the first pass (points 0–31) point 0 forms
  the small product X · W1 into the first scratch, and point t forms rows [256t, 256t + 256) of the hidden layer
  H = relu(A · (X · W1) + b1) into the second, from its 256 × 8192 block of A. In the second pass (points 32–63) point 32
  finds H complete, forms H · W2 into the first scratch, and point t forms rows [256(t − 32), 256(t − 32) + 256) of
  relu(A · (H · W2) + b2) in its output block. The output's block index is (pass · column step), so it rests at block 0
  through the first pass — the window is idle there and nothing is written back — and every block of the result is
  written back exactly once, in the second pass.

  The frames: the body is run once per case of its four conditionals (first point of a pass or not, first or second
  pass), each case leaving the output buffer and the two scratch arrays at named functions of what it loaded; an
  invariant over the grid points says what the scratch arrays hold before each point (the rows of H filled so far; the
  rows not yet filled hold whatever the buffer held), and the launch theorem for a kernel that carries scratch between
  points turns the per-point runs into the run of the whole program. This part does not depend on the float instance
  and is stated once for each of the two printed programs.

  The values: over the extended reals each matrix product is the sum over the contracted index, the bias is added to
  every row and the rectifier is the maximum with zero, in the kernel and in the reference alike, with the same
  grouping A · (X · W1) and A · (H · W2). So stage by stage the scratch arrays ARE the reference's intermediate arrays
  (X · W1, H, H · W2) and each output block is the reference's result on the rows the block holds; no law of the
  extended reals beyond reading each operation at an index is used, and the finiteness precondition is never opened.
  The idealization rewrote nothing, so the preservation claim is trivial.
-/
import proofs.«162940_g91027536872107_cont_sun_m_1130_33_alg».proof.Defs
import proofs.«162940_g91027536872107_cont_sun_m_1130_33_alg».proof.Proof.Gen.Kernel
import proofs.«162940_g91027536872107_cont_sun_m_1130_33_alg».proof.Proof.Gen.KernelIdeal
import proofs.«162940_g91027536872107_cont_sun_m_1130_33_alg».proof.Proof.Gen.ReferenceIdeal
import proofs.«162940_g91027536872107_cont_sun_m_1130_33_alg».proof.Proof.Gen.Pre_finite_inputs
import proofs.«162940_g91027536872107_cont_sun_m_1130_33_alg».proof.Proof.Gen.ReferenceIdeal.Run
import proofs.«162940_g91027536872107_cont_sun_m_1130_33_alg».proof.Proof.Gen.ReferenceIdeal.Read
import proofs.«162940_g91027536872107_cont_sun_m_1130_33_alg».proof.Proof.KBody
import proofs.«162940_g91027536872107_cont_sun_m_1130_33_alg».proof.Proof.KIBody
import proofs.«162940_g91027536872107_cont_sun_m_1130_33_alg».proof.Proof.KIValue
import Idealize.ShloMosaic.Adequacy
import Idealize.ShloMosaic.Init

noncomputable section

namespace Cert.Proof

open Idealize.ShloMosaic Idealize.SL.Sem

/-- The word-level kernel runs to its end, faults nowhere and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the same function of the
    arguments: the reference's last stage, which the kernel's blocks tile. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
